-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S128x40 .f32) (main_arg14 : FVec F S40 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S128x40 .f32 := Host.absf main_arg13
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg14
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x40 .f32) (main_arg12 : FVec F S40 .f32) (main_arg13 : FVec F S128x40 .f32) (main_arg14 : FVec F S40 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x40 .f32) (main_arg12 : FVec F S40 .f32) (main_arg13 : FVec F S128x40 .f32) (main_arg14 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x40 .f32) (main_arg12 : FVec F S40 .f32) (main_arg13 : FVec F S128x40 .f32) (main_arg14 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩
abbrev S2000 : Shape := ⟨1, ![2000]⟩
abbrev S1x40 : Shape := ⟨2, ![1, 40]⟩
abbrev S100000x40 : Shape := ⟨2, ![100000, 40]⟩
abbrev S2000x40 : Shape := ⟨2, ![2000, 40]⟩

abbrev nBuf : Space → Nat
  | .hbm => 80
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S128x40, .f32⟩
  | .hbm, ⟨14, _⟩ => ⟨S40, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .bf16⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S128, .f32⟩
  | .hbm, ⟨44, _⟩ => ⟨S1x128, .f32⟩
  | .hbm, ⟨45, _⟩ => ⟨S100000x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S128, .f32⟩
  | .hbm, ⟨61, _⟩ => ⟨S1x128, .f32⟩
  | .hbm, ⟨62, _⟩ => ⟨S100000x128, .bf16⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .bf16⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S40, .f32⟩
  | .hbm, ⟨78, _⟩ => ⟨S1x40, .f32⟩
  | .hbm, ⟨79, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .bf16⟩
  | .local _ .vmem, ⟨21, _⟩ => ⟨S2000x128, .bf16⟩
  | .local _ .vmem, ⟨22, _⟩ => ⟨S2000x128, .bf16⟩
  | .local _ .vmem, ⟨23, _⟩ => ⟨S2000x128, .bf16⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x40, .f32⟩
  | .local _ .vmem, ⟨29, _⟩ => ⟨S128x40, .f32⟩
  | .local _ .vmem, ⟨30, _⟩ => ⟨S1x40, .f32⟩
  | .local _ .vmem, ⟨31, _⟩ => ⟨S2000x40, .f32⟩
  | .local _ .vmem, ⟨32, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  packedbf16_S2000x128_S2000x128_0_0 : (Rect.unit (s := S2000x128) ![0, 0] S2000x128.size inb_S2000x128_S2000x128_0_0).PackedRows (EltTy.packing .bf16)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .bf16 = 32 ∨ (Rect.block (s := S100000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .bf16 = 32 ∨ (Rect.block (s := S100000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x40.size a ≤ S100000x40.size a
  hwx2_6 : ∀ i : grid2.Coords, EltTy.bits .f32 = 32 ∨ (Rect.block (s := S100000x40) S2000x40.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S2000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x40, .f32⟩
  | 12 => ⟨S40, .f32⟩
  | 13 => ⟨S128x40, .f32⟩
  | 14 => ⟨S40, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S_, .f32⟩
  | 54 => ⟨S100000, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .f32⟩
  | 101 => ⟨S100000, .f32⟩
  | 102 => ⟨S100000x1, .f32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S_, .f32⟩
  | 123 => ⟨S1600000, .f32⟩
  | 124 => ⟨S_, .f32⟩
  | 125 => ⟨S100000, .f32⟩
  | 126 => ⟨S1600000x1, .i32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S100000x40, .f32⟩
  | 7 => ⟨S1x40, .f32⟩
  | 8 => ⟨S100000x40, .f32⟩
  | 9 => ⟨S100000x40, .f32⟩
  | 10 => ⟨S100000x40, .f32⟩
  | 11 => ⟨S100000x40, .f32⟩
  | 12 => ⟨S1x40, .f32⟩
  | 13 => ⟨S100000x40, .f32⟩
  | 14 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_v28 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_cst : Ref sig .tc := ⟨.hbm, 96, rfl⟩
abbrev main_call2_v0 : Ref sig .tc := ⟨.hbm, 97, rfl⟩
abbrev main_v62 : Ref sig .tc := ⟨.hbm, 98, rfl⟩
abbrev main_call3_v0 : Ref sig .tc := ⟨.hbm, 99, rfl⟩
abbrev main_call3_cst : Ref sig .tc := ⟨.hbm, 100, rfl⟩
abbrev main_call3_v1 : Ref sig .tc := ⟨.hbm, 101, rfl⟩
abbrev main_call3_v2 : Ref sig .tc := ⟨.hbm, 102, rfl⟩
abbrev main_v63 : Ref sig .tc := ⟨.hbm, 103, rfl⟩
abbrev main_cst_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_12 : Ref sig .tc := ⟨.hbm, 109, rfl⟩
abbrev main_v68 : Ref sig .tc := ⟨.hbm, 110, rfl⟩
abbrev main_v69 : Ref sig .tc := ⟨.hbm, 111, rfl⟩
abbrev main_c_13 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_15 : Ref sig .tc := ⟨.hbm, 122, rfl⟩
abbrev main_v78 : Ref sig .tc := ⟨.hbm, 123, rfl⟩
abbrev main_cst_16 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_17 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel program's run with its result named.

  The program is six segments: a stretch of host operations, a pallas_call, and so on twice more. At each boundary the
  contents of every buffer are a fold of what came before (host operations applied to the contents, or a region's
  arrays replaced by what its write-backs leave). The run below is the launch of those segments read once more at the
  result buffer: every weakly fair execution terminates, nothing faults, the fifteen arguments end as launched, and
  the result buffer ends at the last boundary's contents.
-/
import proofs.«103235_j68143951118848_2_alg».proof.Proof.FrameKernelIdeal

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents of
    the last boundary and every argument as launched. -/
theorem run_named : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

/-- The result buffer is the last region's output array. -/
theorem result_ref : Pipeline.arrRef spec2 6 = main_v51 := rfl

/-- The last boundary's contents at the result buffer: what the last region's write-backs leave of its output. -/
theorem W6_result (c : Dev nD) : W6 m ρ c (Proc.devRef .tc main_v51) = (dat2 (V5 m ρ) c).arrAt 6 cfg2.N :=
  W6_arr m ρ c 6

end Cert.KernelIdeal.RunValue

end
-- ==== Proof.Spec.lean ====
/-
  The mathematics shared by the two programs, over the extended reals.

  One GraphSAGE layer acts on a node-feature array `h` (a row per node) together with the neighbourhood sums
  `g` (row `r` of `g` is the sum of the rows of `h` over the in-edges of node `r`) and the clamped in-degrees `d`:
  entry `(r, j)` of the dense transform is
      (Σ_k h[r,k]·Ws[k,j] + bs[j]) + Σ_k (g[r,k] / d[r])·Wn[k,j] + bn[j].
  A hidden layer then clamps at zero and divides a row by its Euclidean norm, itself clamped below by a small
  constant; the last layer stops at the dense transform.

  The two programs differ in two places only. One multiplies `g[r,k]` by the reciprocal `1 / d[r]` where the other
  divides by `d[r]`: on the extended reals `x / y` IS `x · y⁻¹` whenever `y ≠ 0`, infinite `y` included, so the
  two agree as soon as `d[r] ≠ 0` — no finiteness is needed. And one adds the two bias vectors first: addition of
  extended reals is commutative and associative, so the grouping is immaterial.
-/
import Idealize.ShloMosaic.PureOps.Ideal
import Idealize.ShloMosaic.Lib.ValueIdx

noncomputable section

namespace Cert.Sage

open Idealize.ShloMosaic Idealize.ShloMosaic.ValueIdx

/-! ## Rows and columns as plain index types -/

section Abstract

variable {ρ κ ο : Type} [Fintype κ]

/-- The dense transform, grouped as the reference groups it: self term, self bias, neighbour term, neighbour bias. -/
def dense (h q : ρ → κ → EReal) (ws wn : κ → ο → EReal) (bs bn : ο → EReal) (r : ρ) (j : ο) : EReal :=
  (((∑ k, h r k * ws k j) + bs j) + ∑ k, q r k * wn k j) + bn j

/-- Clamp at zero, then divide each row by its Euclidean norm clamped below by `eps`. -/
def unitRelu [Fintype ο] (eps : EReal) (x : ρ → ο → EReal) (r : ρ) (j : ο) : EReal :=
  Ideal.div (max (x r j) 0) (max (Ideal.sqrt (∑ k, max (x r k) 0 * max (x r k) 0)) eps)

/-- Multiplying by the reciprocal of a nonzero extended real is dividing by it. -/
theorem mul_recip (a d : EReal) (hd : d ≠ 0) : a * Ideal.div 1 d = Ideal.div a d := by
  unfold Ideal.div
  rw [if_neg hd, if_neg hd, one_mul]

/-- A maximum with one is not zero. -/
theorem max_one_ne_zero (x : EReal) : max x 1 ≠ 0 :=
  (lt_of_lt_of_le zero_lt_one (le_max_right x 1)).ne'

/-- The dense transform with the neighbour sums scaled by reciprocal degrees and the biases added first is the
    dense transform of the quotients. -/
theorem dense_of_scaled (h a : ρ → κ → EReal) (d : ρ → EReal) (hd : ∀ r, d r ≠ 0) (ws wn : κ → ο → EReal)
    (bs bn : ο → EReal) (r : ρ) (j : ο) :
    ((∑ k, h r k * ws k j) + ∑ k, (a r k * Ideal.div 1 (d r)) * wn k j) + (bs j + bn j)
      = dense h (fun r k => Ideal.div (a r k) (d r)) ws wn bs bn r j := by
  unfold dense
  simp only [mul_recip _ _ (hd r)]
  rw [add_add_add_comm, ← add_assoc]

end Abstract

/-! ## Whole arrays of the literal shapes -/

abbrev SN128 : Shape := ⟨2, ![100000, 128]⟩
abbrev SN40 : Shape := ⟨2, ![100000, 40]⟩
abbrev SN1 : Shape := ⟨2, ![100000, 1]⟩
abbrev SN : Shape := ⟨1, ![100000]⟩
abbrev SW128 : Shape := ⟨2, ![128, 128]⟩
abbrev SW40 : Shape := ⟨2, ![128, 40]⟩
abbrev SB128 : Shape := ⟨1, ![128]⟩
abbrev SB40 : Shape := ⟨1, ![40]⟩
abbrev SR128 : Shape := ⟨2, ![1, 128]⟩
abbrev SR40 : Shape := ⟨2, ![1, 40]⟩

/-- A two-axis array as a function of its row and column. -/
abbrev cur2 {a b : Nat} (x : (⟨2, ![a, b]⟩ : Shape).Idx → EReal) : Fin a → Fin b → EReal := fun r k => x (ix2 r k)
/-- A one-axis array as a function of its coordinate. -/
abbrev cur1 {a : Nat} (x : (⟨1, ![a]⟩ : Shape).Idx → EReal) : Fin a → EReal := fun k => x (ix1 k)

/-- The neighbour means: row `r` of the sums divided by node `r`'s clamped degree. -/
abbrev means (g : SN128.Idx → EReal) (d : SN.Idx → EReal) : Fin 100000 → Fin 128 → EReal :=
  fun r k => Ideal.div (g (ix2 r k)) (d (ix1 r))

/-- A hidden layer on whole arrays: features `h`, neighbour sums `g`, clamped degrees `d`. -/
def hidden (eps : EReal) (h g : SN128.Idx → EReal) (d : SN.Idx → EReal) (ws wn : SW128.Idx → EReal)
    (bs bn : SB128.Idx → EReal) : SN128.Idx → EReal :=
  fun i => unitRelu eps (dense (cur2 h) (means g d) (cur2 ws) (cur2 wn) (cur1 bs) (cur1 bn)) (i 0) (i 1)

/-- The last layer on whole arrays. -/
def logits (h g : SN128.Idx → EReal) (d : SN.Idx → EReal) (ws wn : SW40.Idx → EReal)
    (bs bn : SB40.Idx → EReal) : SN40.Idx → EReal :=
  fun i => dense (cur2 h) (means g d) (cur2 ws) (cur2 wn) (cur1 bs) (cur1 bn) (i 0) (i 1)

/-- The dense transform in the other grouping: the sums scaled by a column `dinv` of reciprocals, one bias row `b`;
    stated for any number of rows, so that it reads a block of rows as well as the whole array. -/
def denseScaled {n o : Nat} (h g : (⟨2, ![n, 128]⟩ : Shape).Idx → EReal) (dinv : (⟨2, ![n, 1]⟩ : Shape).Idx → EReal)
    (ws wn : (⟨2, ![128, o]⟩ : Shape).Idx → EReal) (b : (⟨2, ![1, o]⟩ : Shape).Idx → EReal) (r : Fin n) (j : Fin o) : EReal :=
  ((∑ k : Fin 128, h (ix2 r k) * ws (ix2 k j)) + ∑ k : Fin 128, (g (ix2 r k) * dinv (ix2 r 0)) * wn (ix2 k j)) + b (ix2 0 j)

/-- A hidden layer in the other grouping. -/
def hiddenScaled (eps : EReal) (h g : SN128.Idx → EReal) (dinv : SN1.Idx → EReal) (ws wn : SW128.Idx → EReal)
    (b : SR128.Idx → EReal) : SN128.Idx → EReal :=
  fun i => unitRelu eps (denseScaled h g dinv ws wn b) (i 0) (i 1)

/-- The last layer in the other grouping. -/
def logitsScaled (h g : SN128.Idx → EReal) (dinv : SN1.Idx → EReal) (ws wn : SW40.Idx → EReal)
    (b : SR40.Idx → EReal) : SN40.Idx → EReal :=
  fun i => denseScaled h g dinv ws wn b (i 0) (i 1)

theorem denseScaled_eq {o : Nat} (h g : SN128.Idx → EReal) (dinv : SN1.Idx → EReal) (d : SN.Idx → EReal)
    (ws wn : (⟨2, ![128, o]⟩ : Shape).Idx → EReal) (b : (⟨2, ![1, o]⟩ : Shape).Idx → EReal) (bs bn : (⟨1, ![o]⟩ : Shape).Idx → EReal)
    (hinv : ∀ r : Fin 100000, dinv (ix2 r 0) = Ideal.div 1 (d (ix1 r))) (hd : ∀ r : Fin 100000, d (ix1 r) ≠ 0)
    (hb : ∀ j : Fin o, b (ix2 0 j) = bs (ix1 j) + bn (ix1 j)) :
    denseScaled h g dinv ws wn b = dense (cur2 h) (means g d) (cur2 ws) (cur2 wn) (cur1 bs) (cur1 bn) := by
  funext r j
  unfold denseScaled
  rw [hinv r, hb j]
  exact dense_of_scaled (cur2 h) (cur2 g) (fun r => d (ix1 r)) hd (cur2 ws) (cur2 wn) (cur1 bs) (cur1 bn) r j

/-- The two groupings of a hidden layer agree when the column holds the reciprocals of nonzero degrees and the row
    the sum of the two biases. -/
theorem hiddenScaled_eq (eps : EReal) (h g : SN128.Idx → EReal) (dinv : SN1.Idx → EReal) (d : SN.Idx → EReal)
    (ws wn : SW128.Idx → EReal) (b : SR128.Idx → EReal) (bs bn : SB128.Idx → EReal)
    (hinv : ∀ r : Fin 100000, dinv (ix2 r 0) = Ideal.div 1 (d (ix1 r))) (hd : ∀ r : Fin 100000, d (ix1 r) ≠ 0)
    (hb : ∀ j : Fin 128, b (ix2 0 j) = bs (ix1 j) + bn (ix1 j)) :
    hiddenScaled eps h g dinv ws wn b = hidden eps h g d ws wn bs bn := by
  unfold hiddenScaled hidden
  rw [denseScaled_eq h g dinv d ws wn b bs bn hinv hd hb]

/-- The two groupings of the last layer agree under the same conditions. -/
theorem logitsScaled_eq (h g : SN128.Idx → EReal) (dinv : SN1.Idx → EReal) (d : SN.Idx → EReal)
    (ws wn : SW40.Idx → EReal) (b : SR40.Idx → EReal) (bs bn : SB40.Idx → EReal)
    (hinv : ∀ r : Fin 100000, dinv (ix2 r 0) = Ideal.div 1 (d (ix1 r))) (hd : ∀ r : Fin 100000, d (ix1 r) ≠ 0)
    (hb : ∀ j : Fin 40, b (ix2 0 j) = bs (ix1 j) + bn (ix1 j)) :
    logitsScaled h g dinv ws wn b = logits h g d ws wn bs bn := by
  unfold logitsScaled logits
  rw [denseScaled_eq h g dinv d ws wn b bs bn hinv hd hb]

end Cert.Sage

end
-- ==== Proof.Aggregate.lean ====
/-
  The neighbourhood sums and the clamped in-degrees, as functions of a feature array and the two edge lists.

  Both programs compute them with the same host operations: the edge sources are wrapped (a negative entry gets the
  node count added), the rows of `h` at the sources are gathered, and the gathered rows are added into a zero array
  at the edge destinations; the in-degree of a node is the same sum of ones, and it is clamped below by one. Neither
  is ever opened: the two sides meet at these very terms. All that is used of the degrees is that a maximum with one is
  not zero.
-/
import proofs.«103235_j68143951118848_2_alg».proof.Proof.Gen.ReferenceIdeal
import proofs.«103235_j68143951118848_2_alg».proof.Proof.Spec
import Idealize.ShloMosaic.Lib.Pipeline.Value

noncomputable section

namespace Cert.Sage

open Idealize.ShloMosaic Idealize.ShloMosaic.ValueIdx Cert.ReferenceIdeal Cert.ReferenceIdeal.Gen

/-- Row `r` is the sum of the rows of `h` at the sources of the edges into node `r`. -/
def sums (h : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- Entry `r` is the number of edges into node `r`. -/
def counts (dst : (⟨S1600000, .i32⟩ : BufTy).Contents (Elt Ideal)) : (⟨S100000, .f32⟩ : BufTy).Contents (Elt Ideal) :=
  Host.scatterAdd (F := Ideal) scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))

/-- Entry `r` is the number of edges into node `r`, or one if there is none. -/
def degs (dst : (⟨S1600000, .i32⟩ : BufTy).Contents (Elt Ideal)) : (⟨S100000, .f32⟩ : BufTy).Contents (Elt Ideal) :=
  maximumf (F := Ideal) (counts dst) (broadcastInDim S100000 ![] bcast_S_S100000 (constant S_ .f32 0x3F800000#32))

/-- The pattern of `1.0` denotes one. -/
theorem ofBits_one : Ideal.ofBits .f32 0x3F800000#32 = 1 := by
  simp [Ideal.ofBits, Ideal.ieee, -EReal.coe_mul]; norm_num

/-- A vector's maximum with the all-ones vector is nowhere zero. -/
theorem max_ones_ne_zero (s : (⟨S100000, .f32⟩ : BufTy).Contents (Elt Ideal)) (i : S100000.Idx) :
    maximumf (F := Ideal) s (broadcastInDim S100000 ![] bcast_S_S100000 (constant S_ .f32 0x3F800000#32)) i ≠ 0 := by
  show FloatOps.maximumf (s i) (broadcastInDim S100000 ![] bcast_S_S100000 (constant (F := Ideal) S_ .f32 0x3F800000#32) i) ≠ 0
  rw [broadcastInDim_apply _ bcast_S_S100000 _ i ix0 (fun a => a.elim0)]
  simp only [constant, Ideal.maximumf_def, Ideal.ofBits_def, ofBits_one]
  exact max_one_ne_zero _

/-- A clamped degree is a maximum with one, hence not zero. -/
theorem degs_ne_zero (dst : (⟨S1600000, .i32⟩ : BufTy).Contents (Elt Ideal)) (i : S100000.Idx) : degs dst i ≠ 0 :=
  max_ones_ne_zero (counts dst) i

end Cert.Sage

end
-- ==== Proof.Chain.lean ====
/-
  The kernel program's buffers at the entry of each pallas_call.

  Between the regions the program runs host operations. At the entry of region k the arrays its windows read are:
  the features (the argument itself for region 0, the previous region's output afterwards), the neighbourhood sums
  of those features (the same gather and scatter-add the reference uses, applied to a narrowed copy that is widened
  again: on the extended reals both changes of format are the identity), the column of reciprocal clamped degrees
  (computed once, before region 0, and never written again), the two weight matrices (arguments), and the row of the
  two biases' sum. A region writes nothing but its own output array, and no host operation writes an argument or the
  column, so each of these walks back through the boundaries to the launch memory.
-/
import proofs.«103235_j68143951118848_2_alg».proof.Proof.KernelRun
import proofs.«103235_j68143951118848_2_alg».proof.Proof.Aggregate
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx Idealize.SL.Sem

/-! ## The column of reciprocal degrees and the bias rows -/

/-- The two programs' scatter layouts for the degree count are one record. -/
theorem count_layout : (scatter_S100000_S1600000x1_S1600000_n_0_0_1 : ScatterDims S100000 S1600000x1 S1600000)
    = Cert.ReferenceIdeal.scatter_S100000_S1600000x1_S1600000_n_0_0_1 := rfl

/-- The in-degree counts as this program spells them. -/
def countsK (dst : (⟨S1600000, .i32⟩ : BufTy).Contents (Elt Ideal)) : (⟨S100000, .f32⟩ : BufTy).Contents (Elt Ideal) :=
  Host.scatterAdd (F := Ideal) scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))

theorem countsK_eq (dst : (⟨S1600000, .i32⟩ : BufTy).Contents (Elt Ideal)) : countsK dst = Cert.Sage.counts dst := by
  unfold countsK Cert.Sage.counts
  rw [count_layout]

/-- The clamped degrees as this program spells them. -/
def degsK (dst : (⟨S1600000, .i32⟩ : BufTy).Contents (Elt Ideal)) : (⟨S100000, .f32⟩ : BufTy).Contents (Elt Ideal) :=
  maximumf (F := Ideal) (countsK dst) (broadcastInDim S100000 ![] bcast_S_S100000 (constant S_ .f32 0x3F800000#32))

theorem degsK_eq (dst : (⟨S1600000, .i32⟩ : BufTy).Contents (Elt Ideal)) : degsK dst = Cert.Sage.degs dst := by
  unfold degsK Cert.Sage.degs
  rw [countsK_eq]

/-- The reciprocals of the clamped degrees, as a column. -/
def dinvCol (dst : (⟨S1600000, .i32⟩ : BufTy).Contents (Elt Ideal)) : (⟨S100000x1, .f32⟩ : BufTy).Contents (Elt Ideal) :=
  shapeCast S100000x1 (Host.divf (F := Ideal) (φ := .f32) (broadcastInDim S100000 ![] bcast_S_S100000 (constant S_ .f32 0x3F800000#32)) (degsK dst)) shapeCasts_S100000_S100000x1

/-- Row `r` of a column made of one over each entry of `d` is one over `d`'s entry `r`. -/
theorem recipCol_apply (d : (⟨S100000, .f32⟩ : BufTy).Contents (Elt Ideal)) (r : Fin 100000) :
    shapeCast S100000x1 (Host.divf (F := Ideal) (φ := .f32) (broadcastInDim S100000 ![] bcast_S_S100000 (constant S_ .f32 0x3F800000#32)) d) shapeCasts_S100000_S100000x1 (ix2 r (0 : Fin 1))
      = Ideal.div 1 (d (ix1 r)) := by
  rw [shapeCast_apply _ shapeCasts_S100000_S100000x1 (ix2 r (0 : Fin 1)) (ix1 r) (by
    rw [Shape.rowMajor_val_one, Shape.rowMajor_val_two]; show r.val = r.val * 1 + 0; omega)]
  show FloatOps.hostDivf (broadcastInDim S100000 ![] bcast_S_S100000 (constant (F := Ideal) S_ .f32 0x3F800000#32) (ix1 r)) (d (ix1 r)) = _
  rw [broadcastInDim_apply _ bcast_S_S100000 _ (ix1 r) ix0 (fun a => a.elim0)]
  simp only [constant, Ideal.hostDivf_def, Ideal.ofBits_def, Cert.Sage.ofBits_one]

/-- Row `r` of the column is one over node `r`'s clamped degree. -/
theorem dinvCol_apply (dst : (⟨S1600000, .i32⟩ : BufTy).Contents (Elt Ideal)) (r : Fin 100000) :
    dinvCol dst (ix2 r (0 : Fin 1)) = Ideal.div 1 (Cert.Sage.degs dst (ix1 r)) := by
  unfold dinvCol
  rw [degsK_eq]
  exact recipCol_apply (Cert.Sage.degs dst) r

/-- The sum of two bias vectors of length 128, as a row. -/
def biasRow128 (bs bn : (⟨S128, .f32⟩ : BufTy).Contents (Elt Ideal)) : (⟨S1x128, .f32⟩ : BufTy).Contents (Elt Ideal) :=
  shapeCast S1x128 (addf (F := Ideal) (φ := .f32) bs bn) shapeCasts_S128_S1x128

theorem biasRow128_apply (bs bn : (⟨S128, .f32⟩ : BufTy).Contents (Elt Ideal)) (j : Fin 128) :
    biasRow128 bs bn (ix2 (0 : Fin 1) j) = bs (ix1 j) + bn (ix1 j) := by
  unfold biasRow128
  rw [shapeCast_apply _ shapeCasts_S128_S1x128 (ix2 (0 : Fin 1) j) (ix1 j) (by
    rw [Shape.rowMajor_val_one, Shape.rowMajor_val_two]; show j.val = 0 * 128 + j.val; omega)]
  rfl

/-- The sum of two bias vectors of length 40, as a row. -/
def biasRow40 (bs bn : (⟨S40, .f32⟩ : BufTy).Contents (Elt Ideal)) : (⟨S1x40, .f32⟩ : BufTy).Contents (Elt Ideal) :=
  shapeCast S1x40 (addf (F := Ideal) (φ := .f32) bs bn) shapeCasts_S40_S1x40

theorem biasRow40_apply (bs bn : (⟨S40, .f32⟩ : BufTy).Contents (Elt Ideal)) (j : Fin 40) :
    biasRow40 bs bn (ix2 (0 : Fin 1) j) = bs (ix1 j) + bn (ix1 j) := by
  unfold biasRow40
  rw [shapeCast_apply _ shapeCasts_S40_S1x40 (ix2 (0 : Fin 1) j) (ix1 j) (by
    rw [Shape.rowMajor_val_one, Shape.rowMajor_val_two]; show j.val = 0 * 40 + j.val; omega)]
  rfl

variable (m : (ℓ : Loc nD τ sig) → Buf (Elt Ideal) ℓ) (ρ : Dev nD → PrngReg) (c : Dev nD)

/-! ## A region leaves every buffer but its output array as it found it -/

theorem W2_keep (b : Ref sig .tc) (hb : b ≠ main_v23) : W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((dat0 (V1 m ρ) c).arrAt_in w hin _).trans (A_eq0 (V1 m ρ) c w))
  · exact W2_of_ne m ρ c b (fun w e => h ⟨w, e⟩)

theorem W4_keep (b : Ref sig .tc) (hb : b ≠ main_v37) : W4 m ρ c (Proc.devRef .tc b) = W3 m ρ c (Proc.devRef .tc b) := by
  by_cases h : ∃ w, Pipeline.arrRef spec1 w = b
  · obtain ⟨w, rfl⟩ := h
    have hin : (cfg1.win w).isOut = false := by
      revert hb; revert w; decide
    exact (W4_arr m ρ c w).trans (((dat1 (V3 m ρ) c).arrAt_in w hin _).trans (A_eq1 (V3 m ρ) c w))
  · exact W4_of_ne m ρ c b (fun w e => h ⟨w, e⟩)

/-! ## The arguments and the column at each boundary -/

theorem W1_arg1 : W1 m ρ c (Proc.devRef .tc main_arg1) = (m ((c : Thread nD τ).loc main_arg1)) := by
  show StableHlo.after hostOps0 (W0 m ρ c) (Proc.devRef .tc main_arg1) = _
  after_results_simp <;> rfl
theorem W2_arg1 : W2 m ρ c (Proc.devRef .tc main_arg1) = (m ((c : Thread nD τ).loc main_arg1)) :=
  (W2_keep m ρ c main_arg1 (by decide)).trans (W1_arg1 m ρ c)
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem W2_arg2 : W2 m ρ c (Proc.devRef .tc main_arg2) = (m ((c : Thread nD τ).loc main_arg2)) :=
  (W2_keep m ρ c main_arg2 (by decide)).trans (W1_arg2 m ρ c)
theorem W1_arg7 : W1 m ρ c (Proc.devRef .tc main_arg7) = (m ((c : Thread nD τ).loc main_arg7)) := by
  show StableHlo.after hostOps0 (W0 m ρ c) (Proc.devRef .tc main_arg7) = _
  after_results_simp <;> rfl
theorem W2_arg7 : W2 m ρ c (Proc.devRef .tc main_arg7) = (m ((c : Thread nD τ).loc main_arg7)) :=
  (W2_keep m ρ c main_arg7 (by decide)).trans (W1_arg7 m ρ c)
theorem W1_arg8 : W1 m ρ c (Proc.devRef .tc main_arg8) = (m ((c : Thread nD τ).loc main_arg8)) := by
  show StableHlo.after hostOps0 (W0 m ρ c) (Proc.devRef .tc main_arg8) = _
  after_results_simp <;> rfl
theorem W2_arg8 : W2 m ρ c (Proc.devRef .tc main_arg8) = (m ((c : Thread nD τ).loc main_arg8)) :=
  (W2_keep m ρ c main_arg8 (by decide)).trans (W1_arg8 m ρ c)
theorem W1_arg9 : W1 m ρ c (Proc.devRef .tc main_arg9) = (m ((c : Thread nD τ).loc main_arg9)) := by
  show StableHlo.after hostOps0 (W0 m ρ c) (Proc.devRef .tc main_arg9) = _
  after_results_simp <;> rfl
theorem W2_arg9 : W2 m ρ c (Proc.devRef .tc main_arg9) = (m ((c : Thread nD τ).loc main_arg9)) :=
  (W2_keep m ρ c main_arg9 (by decide)).trans (W1_arg9 m ρ c)
theorem W1_arg10 : W1 m ρ c (Proc.devRef .tc main_arg10) = (m ((c : Thread nD τ).loc main_arg10)) := by
  show StableHlo.after hostOps0 (W0 m ρ c) (Proc.devRef .tc main_arg10) = _
  after_results_simp <;> rfl
theorem W2_arg10 : W2 m ρ c (Proc.devRef .tc main_arg10) = (m ((c : Thread nD τ).loc main_arg10)) :=
  (W2_keep m ρ c main_arg10 (by decide)).trans (W1_arg10 m ρ c)
theorem W1_arg11 : W1 m ρ c (Proc.devRef .tc main_arg11) = (m ((c : Thread nD τ).loc main_arg11)) := by
  show StableHlo.after hostOps0 (W0 m ρ c) (Proc.devRef .tc main_arg11) = _
  after_results_simp <;> rfl
theorem W2_arg11 : W2 m ρ c (Proc.devRef .tc main_arg11) = (m ((c : Thread nD τ).loc main_arg11)) :=
  (W2_keep m ρ c main_arg11 (by decide)).trans (W1_arg11 m ρ c)
theorem W1_arg12 : W1 m ρ c (Proc.devRef .tc main_arg12) = (m ((c : Thread nD τ).loc main_arg12)) := by
  show StableHlo.after hostOps0 (W0 m ρ c) (Proc.devRef .tc main_arg12) = _
  after_results_simp <;> rfl
theorem W2_arg12 : W2 m ρ c (Proc.devRef .tc main_arg12) = (m ((c : Thread nD τ).loc main_arg12)) :=
  (W2_keep m ρ c main_arg12 (by decide)).trans (W1_arg12 m ρ c)
theorem W1_arg13 : W1 m ρ c (Proc.devRef .tc main_arg13) = (m ((c : Thread nD τ).loc main_arg13)) := by
  show StableHlo.after hostOps0 (W0 m ρ c) (Proc.devRef .tc main_arg13) = _
  after_results_simp <;> rfl
theorem W2_arg13 : W2 m ρ c (Proc.devRef .tc main_arg13) = (m ((c : Thread nD τ).loc main_arg13)) :=
  (W2_keep m ρ c main_arg13 (by decide)).trans (W1_arg13 m ρ c)
theorem W1_arg14 : W1 m ρ c (Proc.devRef .tc main_arg14) = (m ((c : Thread nD τ).loc main_arg14)) := by
  show StableHlo.after hostOps0 (W0 m ρ c) (Proc.devRef .tc main_arg14) = _
  after_results_simp <;> rfl
theorem W2_arg14 : W2 m ρ c (Proc.devRef .tc main_arg14) = (m ((c : Thread nD τ).loc main_arg14)) :=
  (W2_keep m ρ c main_arg14 (by decide)).trans (W1_arg14 m ρ c)
theorem W3_arg1 : W3 m ρ c (Proc.devRef .tc main_arg1) = (m ((c : Thread nD τ).loc main_arg1)) := by
  show StableHlo.after hostOps1 (W2 m ρ c) (Proc.devRef .tc main_arg1) = _
  after_results_simp <;> exact W2_arg1 m ρ c
theorem W4_arg1 : W4 m ρ c (Proc.devRef .tc main_arg1) = (m ((c : Thread nD τ).loc main_arg1)) :=
  (W4_keep m ρ c main_arg1 (by decide)).trans (W3_arg1 m ρ c)
theorem W3_arg2 : W3 m ρ c (Proc.devRef .tc main_arg2) = (m ((c : Thread nD τ).loc main_arg2)) := by
  show StableHlo.after hostOps1 (W2 m ρ c) (Proc.devRef .tc main_arg2) = _
  after_results_simp <;> exact W2_arg2 m ρ c
theorem W4_arg2 : W4 m ρ c (Proc.devRef .tc main_arg2) = (m ((c : Thread nD τ).loc main_arg2)) :=
  (W4_keep m ρ c main_arg2 (by decide)).trans (W3_arg2 m ρ c)
theorem W3_arg11 : W3 m ρ c (Proc.devRef .tc main_arg11) = (m ((c : Thread nD τ).loc main_arg11)) := by
  show StableHlo.after hostOps1 (W2 m ρ c) (Proc.devRef .tc main_arg11) = _
  after_results_simp <;> exact W2_arg11 m ρ c
theorem W4_arg11 : W4 m ρ c (Proc.devRef .tc main_arg11) = (m ((c : Thread nD τ).loc main_arg11)) :=
  (W4_keep m ρ c main_arg11 (by decide)).trans (W3_arg11 m ρ c)
theorem W3_arg12 : W3 m ρ c (Proc.devRef .tc main_arg12) = (m ((c : Thread nD τ).loc main_arg12)) := by
  show StableHlo.after hostOps1 (W2 m ρ c) (Proc.devRef .tc main_arg12) = _
  after_results_simp <;> exact W2_arg12 m ρ c
theorem W4_arg12 : W4 m ρ c (Proc.devRef .tc main_arg12) = (m ((c : Thread nD τ).loc main_arg12)) :=
  (W4_keep m ρ c main_arg12 (by decide)).trans (W3_arg12 m ρ c)
theorem W3_arg13 : W3 m ρ c (Proc.devRef .tc main_arg13) = (m ((c : Thread nD τ).loc main_arg13)) := by
  show StableHlo.after hostOps1 (W2 m ρ c) (Proc.devRef .tc main_arg13) = _
  after_results_simp <;> exact W2_arg13 m ρ c
theorem W4_arg13 : W4 m ρ c (Proc.devRef .tc main_arg13) = (m ((c : Thread nD τ).loc main_arg13)) :=
  (W4_keep m ρ c main_arg13 (by decide)).trans (W3_arg13 m ρ c)
theorem W3_arg14 : W3 m ρ c (Proc.devRef .tc main_arg14) = (m ((c : Thread nD τ).loc main_arg14)) := by
  show StableHlo.after hostOps1 (W2 m ρ c) (Proc.devRef .tc main_arg14) = _
  after_results_simp <;> exact W2_arg14 m ρ c
theorem W4_arg14 : W4 m ρ c (Proc.devRef .tc main_arg14) = (m ((c : Thread nD τ).loc main_arg14)) :=
  (W4_keep m ρ c main_arg14 (by decide)).trans (W3_arg14 m ρ c)

theorem W1_dinv : W1 m ρ c (Proc.devRef .tc main_v8) = dinvCol (m ((c : Thread nD τ).loc main_arg2)) := by
  show StableHlo.after hostOps0 (W0 m ρ c) (Proc.devRef .tc main_v8) = _
  after_results_simp
  unfold dinvCol degsK countsK
  rfl
theorem W2_dinv : W2 m ρ c (Proc.devRef .tc main_v8) = dinvCol (m ((c : Thread nD τ).loc main_arg2)) :=
  (W2_keep m ρ c main_v8 (by decide)).trans (W1_dinv m ρ c)
theorem W3_dinv : W3 m ρ c (Proc.devRef .tc main_v8) = dinvCol (m ((c : Thread nD τ).loc main_arg2)) := by
  show StableHlo.after hostOps1 (W2 m ρ c) (Proc.devRef .tc main_v8) = _
  after_results_simp <;> exact W2_dinv m ρ c
theorem W4_dinv : W4 m ρ c (Proc.devRef .tc main_v8) = dinvCol (m ((c : Thread nD τ).loc main_arg2)) :=
  (W4_keep m ρ c main_v8 (by decide)).trans (W3_dinv m ρ c)

/-! ## Region 0's arrays at its entry -/

theorem V1_0 : V1 m ρ c (Pipeline.arrRef spec0 0) = (m ((c : Thread nD τ).loc main_arg0)) := by
  show StableHlo.after hostOps0 (W0 m ρ c) (Proc.devRef .tc main_arg0) = _
  after_results_simp <;> rfl
theorem V1_1 : V1 m ρ c (Pipeline.arrRef spec0 1) = Cert.Sage.sums (m ((c : Thread nD τ).loc main_arg0)) (m ((c : Thread nD τ).loc main_arg1)) (m ((c : Thread nD τ).loc main_arg2)) := by
  show StableHlo.after hostOps0 (W0 m ρ c) (Proc.devRef .tc main_v20) = _
  after_results_simp <;> rfl
theorem V1_2 : V1 m ρ c (Pipeline.arrRef spec0 2) = dinvCol (m ((c : Thread nD τ).loc main_arg2)) := W1_dinv m ρ c
theorem V1_3 : V1 m ρ c (Pipeline.arrRef spec0 3) = (m ((c : Thread nD τ).loc main_arg3)) := by
  show StableHlo.after hostOps0 (W0 m ρ c) (Proc.devRef .tc main_arg3) = _
  after_results_simp <;> rfl
theorem V1_4 : V1 m ρ c (Pipeline.arrRef spec0 4) = (m ((c : Thread nD τ).loc main_arg5)) := by
  show StableHlo.after hostOps0 (W0 m ρ c) (Proc.devRef .tc main_arg5) = _
  after_results_simp <;> rfl
theorem V1_5 : V1 m ρ c (Pipeline.arrRef spec0 5) = biasRow128 (m ((c : Thread nD τ).loc main_arg4)) (m ((c : Thread nD τ).loc main_arg6)) := by
  show StableHlo.after hostOps0 (W0 m ρ c) (Proc.devRef .tc main_v22) = _
  after_results_simp <;> rfl

/-! ## Region 1's arrays at its entry -/

theorem V3_0 : V3 m ρ c (Pipeline.arrRef spec1 0) = (dat0 (V1 m ρ) c).arrAt 6 cfg0.N := by
  show StableHlo.after hostOps1 (W2 m ρ c) (Proc.devRef .tc main_v23) = _
  after_results_simp <;> exact W2_arr m ρ c 6
theorem V3_1 : V3 m ρ c (Pipeline.arrRef spec1 1) = Cert.Sage.sums ((dat0 (V1 m ρ) c).arrAt 6 cfg0.N) (m ((c : Thread nD τ).loc main_arg1)) (m ((c : Thread nD τ).loc main_arg2)) := by
  show StableHlo.after hostOps1 (W2 m ρ c) (Proc.devRef .tc main_v34) = _
  after_results_simp
  rw [W2_arg1 m ρ c, W2_arg2 m ρ c, show W2 m ρ c (Proc.devRef .tc main_v23) = _ from W2_arr m ρ c 6]
  rfl
theorem V3_2 : V3 m ρ c (Pipeline.arrRef spec1 2) = dinvCol (m ((c : Thread nD τ).loc main_arg2)) := W3_dinv m ρ c
theorem V3_3 : V3 m ρ c (Pipeline.arrRef spec1 3) = (m ((c : Thread nD τ).loc main_arg7)) := by
  show StableHlo.after hostOps1 (W2 m ρ c) (Proc.devRef .tc main_arg7) = _
  after_results_simp <;> exact W2_arg7 m ρ c
theorem V3_4 : V3 m ρ c (Pipeline.arrRef spec1 4) = (m ((c : Thread nD τ).loc main_arg9)) := by
  show StableHlo.after hostOps1 (W2 m ρ c) (Proc.devRef .tc main_arg9) = _
  after_results_simp <;> exact W2_arg9 m ρ c
theorem V3_5 : V3 m ρ c (Pipeline.arrRef spec1 5) = biasRow128 (m ((c : Thread nD τ).loc main_arg8)) (m ((c : Thread nD τ).loc main_arg10)) := by
  show StableHlo.after hostOps1 (W2 m ρ c) (Proc.devRef .tc main_v36) = _
  after_results_simp
  rw [W2_arg8 m ρ c, W2_arg10 m ρ c]
  rfl

/-! ## Region 2's arrays at its entry -/

theorem V5_0 : V5 m ρ c (Pipeline.arrRef spec2 0) = (dat1 (V3 m ρ) c).arrAt 6 cfg1.N := by
  show StableHlo.after hostOps2 (W4 m ρ c) (Proc.devRef .tc main_v37) = _
  after_results_simp <;> exact W4_arr m ρ c 6
theorem V5_1 : V5 m ρ c (Pipeline.arrRef spec2 1) = Cert.Sage.sums ((dat1 (V3 m ρ) c).arrAt 6 cfg1.N) (m ((c : Thread nD τ).loc main_arg1)) (m ((c : Thread nD τ).loc main_arg2)) := by
  show StableHlo.after hostOps2 (W4 m ρ c) (Proc.devRef .tc main_v48) = _
  after_results_simp
  rw [W4_arg1 m ρ c, W4_arg2 m ρ c, show W4 m ρ c (Proc.devRef .tc main_v37) = _ from W4_arr m ρ c 6]
  rfl
theorem V5_2 : V5 m ρ c (Pipeline.arrRef spec2 2) = dinvCol (m ((c : Thread nD τ).loc main_arg2)) := by
  show StableHlo.after hostOps2 (W4 m ρ c) (Proc.devRef .tc main_v8) = _
  after_results_simp <;> exact W4_dinv m ρ c
theorem V5_3 : V5 m ρ c (Pipeline.arrRef spec2 3) = (m ((c : Thread nD τ).loc main_arg11)) := by
  show StableHlo.after hostOps2 (W4 m ρ c) (Proc.devRef .tc main_arg11) = _
  after_results_simp <;> exact W4_arg11 m ρ c
theorem V5_4 : V5 m ρ c (Pipeline.arrRef spec2 4) = (m ((c : Thread nD τ).loc main_arg13)) := by
  show StableHlo.after hostOps2 (W4 m ρ c) (Proc.devRef .tc main_arg13) = _
  after_results_simp <;> exact W4_arg13 m ρ c
theorem V5_5 : V5 m ρ c (Pipeline.arrRef spec2 5) = biasRow40 (m ((c : Thread nD τ).loc main_arg12)) (m ((c : Thread nD τ).loc main_arg14)) := by
  show StableHlo.after hostOps2 (W4 m ρ c) (Proc.devRef .tc main_v50) = _
  after_results_simp
  rw [W4_arg12 m ρ c, W4_arg14 m ρ c]
  rfl

end Cert.KernelIdeal.Chain

end
-- ==== Proof.Network.lean ====
/-
  The whole network as one function of the fifteen arguments: two hidden layers and the last layer, each fed the
  previous layer's features and their neighbourhood sums; the clamped degrees depend on the edge destinations only.
-/
import proofs.«103235_j68143951118848_2_alg».proof.Proof.Aggregate

noncomputable section

namespace Cert.Sage

open Idealize.ShloMosaic Cert.ReferenceIdeal

/-- The small constant that clamps a row's norm from below; its value is never needed. -/
abbrev eps : EReal := Ideal.ofBits .f32 0x2B8CBCCC#32

/-- One hidden layer as a function of the features, the edges and the layer's parameters. -/
def hiddenLayer (h : (⟨S100000x128, .f32⟩ : BufTy).Contents (Elt Ideal)) (src dst : (⟨S1600000, .i32⟩ : BufTy).Contents (Elt Ideal))
    (ws : (⟨S128x128, .f32⟩ : BufTy).Contents (Elt Ideal)) (bs : (⟨S128, .f32⟩ : BufTy).Contents (Elt Ideal))
    (wn : (⟨S128x128, .f32⟩ : BufTy).Contents (Elt Ideal)) (bn : (⟨S128, .f32⟩ : BufTy).Contents (Elt Ideal)) :
    (⟨S100000x128, .f32⟩ : BufTy).Contents (Elt Ideal) :=
  hidden eps h (sums h src dst) (degs dst) ws wn bs bn

/-- The last layer as a function of the features, the edges and the layer's parameters. -/
def lastLayer (h : (⟨S100000x128, .f32⟩ : BufTy).Contents (Elt Ideal)) (src dst : (⟨S1600000, .i32⟩ : BufTy).Contents (Elt Ideal))
    (ws : (⟨S128x40, .f32⟩ : BufTy).Contents (Elt Ideal)) (bs : (⟨S40, .f32⟩ : BufTy).Contents (Elt Ideal))
    (wn : (⟨S128x40, .f32⟩ : BufTy).Contents (Elt Ideal)) (bn : (⟨S40, .f32⟩ : BufTy).Contents (Elt Ideal)) :
    (⟨S100000x40, .f32⟩ : BufTy).Contents (Elt Ideal) :=
  logits h (sums h src dst) (degs dst) ws wn bs bn

/-- The three layers composed. -/
def network (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x40, .f32⟩ : BufTy).Contents (Elt Ideal)) (x12 : (⟨S40, .f32⟩ : BufTy).Contents (Elt Ideal))
    (x13 : (⟨S128x40, .f32⟩ : BufTy).Contents (Elt Ideal)) (x14 : (⟨S40, .f32⟩ : BufTy).Contents (Elt Ideal)) :
    (⟨S100000x40, .f32⟩ : BufTy).Contents (Elt Ideal) :=
  lastLayer (hiddenLayer (hiddenLayer x0 x1 x2 x3 x4 x5 x6) x1 x2 x7 x8 x9 x10) x1 x2 x11 x12 x13 x14

end Cert.Sage

end
-- ==== Proof.PayMatmul.lean ====
/-
  The two matrix products of the kernel bodies, read at one entry over the extended reals.

  Both contract the lanes of a [2000, 128] block with the rows of a weight matrix ([128, 128] in the hidden layers,
  [128, 40] in the last layer) and accumulate into the zero array, so entry (r, j) of the product is
      Σ_k block[r, k] · weight[k, j],   k over the 128 lanes,
  with no initial term (0 + s = s). The contraction index of the product has one axis of extent 128; the sum over it
  is re-indexed through the bijection with Fin 128, and the four coordinate facts say which entry of each operand
  the product reads: the left operand at (r, k), the right operand at (k, j).
-/
import proofs.«103235_j68143951118848_2_alg».proof.Proof.Gen.KernelIdeal
import Idealize.ShloMosaic.Lib.ValueIdx
import Idealize.ShloMosaic.PureOps.Ideal.Laws

noncomputable section

namespace Cert.KernelIdeal.Pay

open Idealize.ShloMosaic Idealize.ShloMosaic.ValueIdx Cert.KernelIdeal

/-! ## Into [2000, 128] -/

/-- The left operand's row coordinate is the output's row. -/
theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's lane coordinate is the contraction coordinate. -/
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction coordinate. -/
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a [2000, 128] block with a [128, 128] matrix, accumulated into zero, read at (r, j): the sum over
    k of the block at (r, k) times the matrix at (k, j). -/
theorem matmul128_apply {φ₁ φ₂ : FTy} (x : FVec Ideal S2000x128 φ₁) (w : FVec Ideal S128x128 φ₂) (r : Fin 2000) (j : Fin 128) :
    matmul dot_S2000x128_S128x128_S2000x128_1_0_0_1_n_n none x w (constant (F := Ideal) S2000x128 .f32 0x00000000#32) (ix2 r j)
      = ∑ k : Fin 128, x (ix2 r k) * w (ix2 k j) := by
  show FloatOps.matmul dot_S2000x128_S128x128_S2000x128_1_0_0_1_n_n none x w (constant (F := Ideal) S2000x128 .f32 0x00000000#32) (ix2 r j) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-! ## Into [2000, 40] -/

/-- The left operand's row coordinate is the output's row. -/
theorem lhs40_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
/-- The left operand's lane coordinate is the contraction coordinate. -/
theorem lhs40_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
/-- The right operand's row coordinate is the contraction coordinate. -/
theorem rhs40_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
/-- The right operand's column coordinate is the output's column. -/
theorem rhs40_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The product of a [2000, 128] block with a [128, 40] matrix, accumulated into zero, read at (r, j): the sum over
    k of the block at (r, k) times the matrix at (k, j). -/
theorem matmul40_apply {φ₁ φ₂ : FTy} (x : FVec Ideal S2000x128 φ₁) (w : FVec Ideal S128x40 φ₂) (r : Fin 2000) (j : Fin 40) :
    matmul dot_S2000x128_S128x40_S2000x40_1_0_0_1_n_n none x w (constant (F := Ideal) S2000x40 .f32 0x00000000#32) (ix2 r j)
      = ∑ k : Fin 128, x (ix2 r k) * w (ix2 k j) := by
  show FloatOps.matmul dot_S2000x128_S128x40_S2000x40_1_0_0_1_n_n none x w (constant (F := Ideal) S2000x40 .f32 0x00000000#32) (ix2 r j) = _
  rw [Ideal.matmul_constant_zero_apply, ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 r j) ((contrEquiv1 dot_S2000x128_S128x40_S2000x40_1_0_0_1_n_n 128 rfl rfl).symm k) = ix2 r k := funext fun a => Fin.ext (by
    match a with
    | ⟨0, _⟩ => exact lhs40_0 _ _
    | ⟨1, _⟩ => exact (lhs40_1 _ _).trans hk)
  have er : dot_S2000x128_S128x40_S2000x40_1_0_0_1_n_n.rhsIdx (ix2 r j) ((contrEquiv1 dot_S2000x128_S128x40_S2000x40_1_0_0_1_n_n 128 rfl rfl).symm k) = ix2 k j := funext fun a => Fin.ext (by
    match a with
    | ⟨0, _⟩ => exact (rhs40_0 _ _).trans hk
    | ⟨1, _⟩ => exact rhs40_1 _ _)
  rw [el, er]

end Cert.KernelIdeal.Pay

end
-- ==== Proof.LibLayout.lean ====
/-
  Layout readings at explicit coordinates for arrays with a trailing unit axis (a column that keeps one entry per
  row), and the sum of a matrix along its lanes.

  * A column of shape [a, 1] broadcast to [a, b] holds, at (p, c), the column's entry of row p: the broadcast keeps
    the row coordinate and reads the column's only lane.
  * A vector of shape [a] viewed as a column [a, 1] holds, at (i, u), the vector's entry i: both indices have the
    row-major position i, since u is 0.
  * The sum along axis 1 of a matrix of shape [a, b], read at i over the extended reals, is the sum over the b lanes k
    of the entry (i, k), with no initial term.
-/
import Idealize.ShloMosaic.Lib.ValueLayout
import Idealize.ShloMosaic.PureOps.Ideal.Laws

namespace Cert.Layout

open Idealize.ShloMosaic Idealize.ShloMosaic.ValueIdx

/-- An [a, 1] column broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along axis 1 of an [a, b] matrix, read at i over the extended reals: the sum over the lanes k of the
    entry (i, k). -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (funext fun ax => Fin.ext (by
    match ax with
    | ⟨0, _⟩ => rfl
    | ⟨1, _⟩ => rfl))

end Cert.Layout
-- ==== Proof.PayDense.lean ====
/-
  The dense transform of one GraphSAGE layer as a kernel body computes it, read at one entry over the extended reals.

  A body holds a block `A` of 2000 rows of node features, the matching rows `g` of neighbour sums, a column `c` of
  reciprocal degrees, two weight matrices `Ws`, `Wn` and one bias row `b`, and forms
      A · Ws  +  (g scaled row by row by c) · Wn  +  b (the same row added to every row).
  Read at (r, j) this is
      Σ_k A[r,k]·Ws[k,j]  +  Σ_k (g[r,k]·c[r,0])·Wn[k,j]  +  b[0,j],
  the dense transform in the grouping that scales the sums by reciprocals and adds one bias row. Over the extended
  reals the changes of float format and the casts of a shape to itself are the identity, each product into the zero
  array is the plain sum over the 128 lanes, the column broadcast along the lanes reads the row's only lane, and the
  row broadcast down the rows reads the only row. The statement is made twice, for the two output widths (128 in the
  hidden layers, 40 in the last layer), because the two products have different dimension records.
-/
import proofs.«103235_j68143951118848_2_alg».proof.Proof.PayMatmul
import proofs.«103235_j68143951118848_2_alg».proof.Proof.LibLayout
import proofs.«103235_j68143951118848_2_alg».proof.Proof.Spec
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.Layout

/-- Entry (r, j) of the dense transform as a kernel body computes it into [2000, 128]: the product of the block `A` with
    the self weights, plus the product of the scaled neighbour sums with the neighbour weights, plus the bias row. The
    casts of a shape to itself and the changes of float format are the identity; the scaling column is read at the
    row's only lane and the bias row at its only row. -/
theorem dense128_apply {φA : FTy} (A : FVec Ideal S2000x128 φA) (v2 : FVec Ideal S2000x128 .f32) (v4 : FVec Ideal S2000x1 .f32)
    (v9 v11 : FVec Ideal S128x128 .f32) (v16 : FVec Ideal S1x128 .f32)
    (h2 : S2000x128.ShapeCasts S2000x128) (h4 : S2000x1.ShapeCasts S2000x1) (hb4 : S2000x1.Broadcasts S2000x128)
    (h16 : S1x128.ShapeCasts S1x128) (hb16 : S1x128.Broadcasts S2000x128) (hlt : FTy.bits .bf16 < FTy.bits .f32)
    (r : Fin 2000) (j : Fin 128) :
    addf (addf (matmul dot_S2000x128_S128x128_S2000x128_1_0_0_1_n_n none A (truncf .bf16 v9 hlt) (constant (F := Ideal) S2000x128 .f32 0x00000000#32))
            (matmul dot_S2000x128_S128x128_S2000x128_1_0_0_1_n_n none
              (truncf .bf16 (mulf (shapeCast S2000x128 v2 h2) (broadcastTo S2000x128 (shapeCast S2000x1 v4 h4) hb4)) hlt)
              (truncf .bf16 v11 hlt) (constant (F := Ideal) S2000x128 .f32 0x00000000#32)))
        (broadcastTo S2000x128 (shapeCast S1x128 v16 h16) hb16) (ix2 r j)
      = Cert.Sage.denseScaled (n := 2000) A v2 v4 v9 v11 v16 r j := by
  unfold Cert.Sage.denseScaled
  rw [shapeCast_self v2 h2, shapeCast_self v4 h4, shapeCast_self v16 h16]
  refine congrArg₂ (· + ·) (congrArg₂ (· + ·) ?_ ?_) ?_
  · exact matmul128_apply A (truncf .bf16 v9 hlt) r j
  · refine (matmul128_apply _ (truncf .bf16 v11 hlt) r j).trans ?_
    refine Finset.sum_congr rfl fun k _ => congrArg (· * v11 (ix2 k j)) ?_
    show v2 (ix2 r k) * broadcastTo S2000x128 v4 hb4 (ix2 r k) = _
    rw [broadcastTo_a1_ab_apply v4 hb4 r k]
  · exact broadcastTo_1b_ab_apply v16 hb16 r j

/-- Entry (r, j) of the dense transform as a kernel body computes it into [2000, 40]: the product of the block `A` with
    the self weights, plus the product of the scaled neighbour sums with the neighbour weights, plus the bias row. The
    casts of a shape to itself and the changes of float format are the identity; the scaling column is read at the
    row's only lane and the bias row at its only row. -/
theorem dense40_apply {φA : FTy} (A : FVec Ideal S2000x128 φA) (v2 : FVec Ideal S2000x128 .f32) (v4 : FVec Ideal S2000x1 .f32)
    (v9 v11 : FVec Ideal S128x40 .f32) (v16 : FVec Ideal S1x40 .f32)
    (h2 : S2000x128.ShapeCasts S2000x128) (h4 : S2000x1.ShapeCasts S2000x1) (hb4 : S2000x1.Broadcasts S2000x128)
    (h16 : S1x40.ShapeCasts S1x40) (hb16 : S1x40.Broadcasts S2000x40) (hlt : FTy.bits .bf16 < FTy.bits .f32)
    (r : Fin 2000) (j : Fin 40) :
    addf (addf (matmul dot_S2000x128_S128x40_S2000x40_1_0_0_1_n_n none A (truncf .bf16 v9 hlt) (constant (F := Ideal) S2000x40 .f32 0x00000000#32))
            (matmul dot_S2000x128_S128x40_S2000x40_1_0_0_1_n_n none
              (truncf .bf16 (mulf (shapeCast S2000x128 v2 h2) (broadcastTo S2000x128 (shapeCast S2000x1 v4 h4) hb4)) hlt)
              (truncf .bf16 v11 hlt) (constant (F := Ideal) S2000x40 .f32 0x00000000#32)))
        (broadcastTo S2000x40 (shapeCast S1x40 v16 h16) hb16) (ix2 r j)
      = Cert.Sage.denseScaled (n := 2000) A v2 v4 v9 v11 v16 r j := by
  unfold Cert.Sage.denseScaled
  rw [shapeCast_self v2 h2, shapeCast_self v4 h4, shapeCast_self v16 h16]
  refine congrArg₂ (· + ·) (congrArg₂ (· + ·) ?_ ?_) ?_
  · exact matmul40_apply A (truncf .bf16 v9 hlt) r j
  · refine (matmul40_apply _ (truncf .bf16 v11 hlt) r j).trans ?_
    refine Finset.sum_congr rfl fun k _ => congrArg (· * v11 (ix2 k j)) ?_
    show v2 (ix2 r k) * broadcastTo S2000x128 v4 hb4 (ix2 r k) = _
    rw [broadcastTo_a1_ab_apply v4 hb4 r k]
  · exact broadcastTo_1b_ab_apply v16 hb16 r j

end Cert.KernelIdeal.Pay

end
-- ==== Proof.PayNorm.lean ====
/-
  The end of a hidden layer's body, read at one entry over the extended reals.

  After the dense transform `d` a hidden layer's body clamps every entry at zero, x = max(d, 0), squares, sums each
  row along its 128 lanes, views the 2000 sums as a column, takes the square root, clamps the column below by the
  small constant eps, spreads the column along the lanes and divides:
      out[r,j] = max(d[r,j], 0) / max( sqrt( Σ_k max(d[r,k],0)·max(d[r,k],0) ), eps ).
  Every step but three acts entry by entry. The three that move entries are read at explicit coordinates: the column
  spread along the lanes reads the row's only lane; the vector of row sums viewed as a column reads the same row; the
  lane sum is the sum over the 128 lanes with no initial term. The zero the entries are clamped at is the float word
  0, which denotes the extended real 0; eps stays the float word it is and is never evaluated. The closing change of
  float format is the identity.
-/
import proofs.«103235_j68143951118848_2_alg».proof.Proof.Gen.KernelIdeal
import proofs.«103235_j68143951118848_2_alg».proof.Proof.LibLayout
import proofs.«103235_j68143951118848_2_alg».proof.Proof.Spec

noncomputable section

namespace Cert.KernelIdeal.Pay

open Idealize.ShloMosaic Idealize.ShloMosaic.ValueIdx Cert.KernelIdeal Cert.Layout

/-- The end of a hidden layer's body applied to a dense transform `d`, read at (r, j): the entry clamped at zero,
    divided by the row's Euclidean norm clamped below by the small constant. The norm's column is the lane sum of the
    squared clamped entries, viewed as a column, under the square root; the quotient reads that column at the row's
    only lane; the closing change of float format is the identity. -/
theorem unitRelu_tail_apply (d : FVec Ideal S2000x128 .f32)
    (hred : S2000x128.Reduces [1] S2000) (hφ : FKind.Formats .f32)
    (hacc : (0x00000000#32 : BitVec (FTy.bits .f32)) = FKind.add.neutral .f32 hφ)
    (hcast : S2000.ShapeCasts S2000x1) (hb : S2000x1.Broadcasts S2000x128) (hlt : FTy.bits .bf16 < FTy.bits .f32)
    (r : Fin 2000) (j : Fin 128) :
    truncf .bf16
      (divf (maximumf d (broadcast S2000x128 (Scalar.ofBits (F := Ideal) .f32 0x00000000#32)))
        (broadcastTo S2000x128
          (maximumf
            (sqrt (shapeCast S2000x1
              (multiReduction (F := Ideal) .add [1] S2000
                (mulf (maximumf d (broadcast S2000x128 (Scalar.ofBits (F := Ideal) .f32 0x00000000#32)))
                      (maximumf d (broadcast S2000x128 (Scalar.ofBits (F := Ideal) .f32 0x00000000#32))))
                0x00000000#32 hred hφ hacc) hcast))
            (broadcast S2000x1 (Scalar.ofBits (F := Ideal) .f32 0x2B8CBCCC#32)))
          hb))
      hlt (ix2 r j)
    = Cert.Sage.unitRelu (Ideal.ofBits .f32 0x2B8CBCCC#32) (fun r k => d (ix2 r k)) r j := by
  unfold Cert.Sage.unitRelu
  show Ideal.div (max (d (ix2 r j)) (Ideal.ofBits .f32 0x00000000#32))
      (broadcastTo S2000x128 _ hb (ix2 r j)) = _
  refine congrArg₂ Ideal.div ?_ ?_
  · rw [Ideal.ofBits_zero_f32]
  · refine (broadcastTo_a1_ab_apply _ hb r j).trans ?_
    show max (Ideal.sqrt (shapeCast S2000x1 _ hcast (ix2 r (0 : Fin 1)))) (Ideal.ofBits .f32 0x2B8CBCCC#32) = _
    refine congrArg (fun s => max (Ideal.sqrt s) (Ideal.ofBits .f32 0x2B8CBCCC#32)) ?_
    refine (shapeCast_a_a1_apply _ hcast r 0).trans ?_
    refine (laneSum_apply _ _ hred hφ hacc r).trans ?_
    refine Finset.sum_congr rfl fun k _ => ?_
    show max (d (ix2 r k)) (Ideal.ofBits .f32 0x00000000#32) * max (d (ix2 r k)) (Ideal.ofBits .f32 0x00000000#32) = _
    rw [Ideal.ofBits_zero_f32]

end Cert.KernelIdeal.Pay

end
-- ==== Proof.PayHidden.lean ====
/-
  The two hidden layers' kernel bodies, read at one entry over the extended reals.

  Each body stores, for the 2000 rows of its block and the 128 output columns, the dense transform of the block
  clamped at zero and divided, row by row, by the row's Euclidean norm clamped below by the small constant:
      out[r,j] = max(d[r,j], 0) / max( sqrt( Σ_k max(d[r,k],0)² ), eps ),
      d[r,j]   = Σ_k h[r,k]·Ws[k,j]  +  Σ_k (g[r,k]·c[r,0])·Wn[k,j]  +  b[0,j].
  The two bodies differ in their first step only: the first layer narrows its block of input features to the
  half-width float format, the second casts its block of hidden features to its own shape; over the extended reals
  both steps are the identity. The proof reads the end of the body (clamp, norm, quotient) at the entry for an
  arbitrary dense transform, then reads the dense transform at each entry of the row.
-/
import proofs.«103235_j68143951118848_2_alg».proof.Proof.Gen.KernelIdeal.Skeleton
import proofs.«103235_j68143951118848_2_alg».proof.Proof.PayDense
import proofs.«103235_j68143951118848_2_alg».proof.Proof.PayNorm

noncomputable section

namespace Cert.KernelIdeal.Pay

open Idealize.ShloMosaic Idealize.ShloMosaic.ValueIdx Cert.KernelIdeal

/-- Entry (r, j) of what the first hidden layer's body stores: the clamped, row-normalized dense transform of its
    block of input features. -/
theorem pay0_apply (v0 v2 : Vec Ideal S2000x128 .f32) (v4 : Vec Ideal S2000x1 .f32) (v9 v11 : Vec Ideal S128x128 .f32)
    (v16 : Vec Ideal S1x128 .f32) (r : Fin 2000) (j : Fin 128) :
    Gen.k0_pay1 (F := Ideal) v0 v2 v4 v9 v11 v16 (ix2 r j)
      = Cert.Sage.unitRelu (Ideal.ofBits .f32 0x2B8CBCCC#32) (Cert.Sage.denseScaled (n := 2000) v0 v2 v4 v9 v11 v16) r j := by
  unfold Gen.k0_pay1
  refine (unitRelu_tail_apply _ _ _ _ _ _ _ r j).trans ?_
  refine congrArg (fun x => Cert.Sage.unitRelu (Ideal.ofBits .f32 0x2B8CBCCC#32) x r j) (funext fun r' => funext fun k => ?_)
  exact dense128_apply (truncf .bf16 v0 _) v2 v4 v9 v11 v16 _ _ _ _ _ _ r' k

/-- Entry (r, j) of what the second hidden layer's body stores: the same of its block of hidden features. -/
theorem pay1_apply (v0 : Vec Ideal S2000x128 .bf16) (v2 : Vec Ideal S2000x128 .f32) (v4 : Vec Ideal S2000x1 .f32) (v9 v11 : Vec Ideal S128x128 .f32)
    (v16 : Vec Ideal S1x128 .f32) (r : Fin 2000) (j : Fin 128) :
    Gen.k1_pay1 (F := Ideal) v0 v2 v4 v9 v11 v16 (ix2 r j)
      = Cert.Sage.unitRelu (Ideal.ofBits .f32 0x2B8CBCCC#32) (Cert.Sage.denseScaled (n := 2000) v0 v2 v4 v9 v11 v16) r j := by
  unfold Gen.k1_pay1
  refine (unitRelu_tail_apply _ _ _ _ _ _ _ r j).trans ?_
  refine congrArg (fun x => Cert.Sage.unitRelu (Ideal.ofBits .f32 0x2B8CBCCC#32) x r j) (funext fun r' => funext fun k => ?_)
  refine (dense128_apply (shapeCast S2000x128 v0 _) v2 v4 v9 v11 v16 _ _ _ _ _ _ r' k).trans ?_
  rw [shapeCast_self]

end Cert.KernelIdeal.Pay

end
-- ==== Proof.PayLogits.lean ====
/-
  The last layer's kernel body, read at one entry over the extended reals.

  The value the body stores is the dense transform of its block: for the 2000 rows of the block and the 40 output
  columns, entry (r, j) is
      Σ_k h[r,k]·Ws[k,j]  +  Σ_k (g[r,k]·c[r,0])·Wn[k,j]  +  b[0,j]
  with h the block of hidden features, g the block of neighbour sums, c the column of reciprocal degrees, Ws and Wn
  the two weight matrices and b the bias row. The body first casts the feature block to its own shape, which is the
  identity; the rest is the dense transform read at an entry.
-/
import proofs.«103235_j68143951118848_2_alg».proof.Proof.Gen.KernelIdeal.Skeleton
import proofs.«103235_j68143951118848_2_alg».proof.Proof.PayDense

noncomputable section

namespace Cert.KernelIdeal.Pay

open Idealize.ShloMosaic Idealize.ShloMosaic.ValueIdx Cert.KernelIdeal

/-- Entry (r, j) of what the last layer's body stores is the dense transform of its block at (r, j). -/
theorem pay2_apply (v0 : Vec Ideal S2000x128 .bf16) (v2 : Vec Ideal S2000x128 .f32) (v4 : Vec Ideal S2000x1 .f32)
    (v9 v11 : Vec Ideal S128x40 .f32) (v16 : Vec Ideal S1x40 .f32) (r : Fin 2000) (j : Fin 40) :
    Gen.k2_pay1 (F := Ideal) v0 v2 v4 v9 v11 v16 (ix2 r j) = Cert.Sage.denseScaled (n := 2000) v0 v2 v4 v9 v11 v16 r j := by
  unfold Gen.k2_pay1
  refine (dense40_apply (shapeCast S2000x128 v0 _) v2 v4 v9 v11 v16 _ _ _ _ _ _ r j).trans ?_
  rw [shapeCast_self]

end Cert.KernelIdeal.Pay

end
-- ==== Proof.BlockRows.lean ====
/-
  Which entries of its arguments an entry of a layer reads.

  Entry (r, j) of the dense transform is a sum over k of products of row r of the features with column j of the
  self weights, plus the same for row r of the neighbour sums scaled by the reciprocal degree of row r with the
  neighbour weights, plus entry j of the bias row.  It therefore reads row r of the three row-indexed arrays and
  column j of the weights and bias, and nothing else: two families of arrays that agree there — the rows may sit
  at different row numbers, as a block of rows sits inside the whole array — give the same entry.  The clamp at
  zero is entrywise and the Euclidean norm of row r is a sum over row r, so an entry of the normalised clamped
  array reads row r only.
-/
import proofs.«103235_j68143951118848_2_alg».proof.Proof.Spec
import Idealize.ShloMosaic.Lib.ValueIdx

noncomputable section

namespace Cert.KernelIdeal.Blocks

open Idealize.ShloMosaic Idealize.ShloMosaic.ValueIdx

/-- The zero offsets of a whole-block access, however they are spelt. -/
theorem offsets_zero : (![0, 0] : Fin 2 → Nat) = fun _ => 0 := funext fun a => by fin_cases a <;> rfl

/-- Entry (r, j) of the dense transform reads row r of the features, of the sums and of the reciprocal degrees,
    and column j of the weights and of the bias: two families of arrays that agree there give the same entry. -/
theorem denseScaled_rows {n n' o : Nat}
    (h g : (⟨2, ![n, 128]⟩ : Shape).Idx → EReal) (d : (⟨2, ![n, 1]⟩ : Shape).Idx → EReal)
    (ws wn : (⟨2, ![128, o]⟩ : Shape).Idx → EReal) (b : (⟨2, ![1, o]⟩ : Shape).Idx → EReal)
    (H G : (⟨2, ![n', 128]⟩ : Shape).Idx → EReal) (D : (⟨2, ![n', 1]⟩ : Shape).Idx → EReal)
    (WS WN : (⟨2, ![128, o]⟩ : Shape).Idx → EReal) (B : (⟨2, ![1, o]⟩ : Shape).Idx → EReal)
    (r : Fin n) (ρ : Fin n') (j : Fin o)
    (eh : ∀ k : Fin 128, h (ix2 r k) = H (ix2 ρ k)) (eg : ∀ k : Fin 128, g (ix2 r k) = G (ix2 ρ k))
    (ed : d (ix2 r 0) = D (ix2 ρ 0))
    (ews : ∀ k : Fin 128, ws (ix2 k j) = WS (ix2 k j)) (ewn : ∀ k : Fin 128, wn (ix2 k j) = WN (ix2 k j))
    (eb : b (ix2 0 j) = B (ix2 0 j)) :
    Cert.Sage.denseScaled h g d ws wn b r j = Cert.Sage.denseScaled H G D WS WN B ρ j := by
  unfold Cert.Sage.denseScaled
  simp only [eh, eg, ed, ews, ewn, eb]

/-- Entry (r, j) of the normalised clamped array reads row r only: two arrays that agree on that row give the
    same entry. -/
theorem unitRelu_rows {n n' o : Nat} (eps : EReal) (x : Fin n → Fin o → EReal) (X : Fin n' → Fin o → EReal)
    (r : Fin n) (ρ : Fin n') (j : Fin o) (e : ∀ k : Fin o, x r k = X ρ k) :
    Cert.Sage.unitRelu eps x r j = Cert.Sage.unitRelu eps X ρ j := by
  unfold Cert.Sage.unitRelu
  simp only [e]

end Cert.KernelIdeal.Blocks

end
-- ==== Proof.Blocks0.lean ====
/-
  From blocks to whole arrays, first layer (a hidden layer: dense transform, clamp at zero, division of each row
  by its Euclidean norm clamped below by a small constant).

  The region runs over a grid of 50 points.  Point t loads rows 2000·t … 2000·t + 1999 of the features, of the
  neighbour sums and of the column of reciprocal degrees, together with the whole of the two weight matrices and
  of the bias row, and writes back rows 2000·t … 2000·t + 1999 of the result.  Entry (r, j) of the dense transform
  depends on row r of the features, of the sums and of the reciprocal degrees only, and on column j of the weights
  and of the bias; the clamp is entrywise and the norm of row r is a sum over row r of the transform.  So the
  hidden layer of the loaded blocks at row r is the hidden layer of the whole arrays at row 2000·t + r, that is,
  what point t writes back is block t of ONE function of the whole arrays.  The fifty blocks tile the 100000 rows
  (row ρ lies in block ρ / 2000), hence the array after the run is that function.
-/
import proofs.«103235_j68143951118848_2_alg».proof.Proof.FrameKernelIdeal
import proofs.«103235_j68143951118848_2_alg».proof.Proof.Spec
import proofs.«103235_j68143951118848_2_alg».proof.Proof.BlockRows
import Idealize.ShloMosaic.Lib.Pipeline.Value
import Idealize.ShloMosaic.Lib.ValueIdx

noncomputable section

namespace Cert.KernelIdeal.Blocks

open Idealize.ShloMosaic Idealize.ShloMosaic.ValueIdx Idealize.ShloMosaic.TcCoe Cert.KernelIdeal
open Idealize.ShloMosaic.Pipeline (Dat)

/-- The windows' index maps, decided once over the fifty grid points: at point t the three row-blocked inputs and
    the output sit at block row t, block column 0; the weights and the bias at block (0, 0). -/
theorem index_maps0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Point t's block of the features is rows 2000·t … 2000·t + 1999 of the array. -/
theorem rows0_0 (V : (c : Dev nD) → (b : Ref sig .tc) → Buf (Elt Ideal) ((c : Thread nD τ).loc b)) (c : Dev nD) (t : Fin cfg0.N)
    (x : S2000x128.Idx) (k : S100000x128.Idx) (hk0 : (k 0).val = 2000 * t.val + (x 0).val) (hk1 : (k 1).val = (x 1).val) :
    (Gen.iblk0 (F := Ideal) V c 0 t : Vec Ideal S2000x128 .f32) x = (V c (Pipeline.arrRef spec0 0) : S100000x128.Idx → EReal) k := by
  obtain ⟨a00, a01, a10, a11, a20, a21, -⟩ := index_maps0 t
  unfold Gen.iblk0
  rw [View.read_apply]
  show V c (Pipeline.arrRef spec0 0) (((cfg0.win 0).blk t).view.emb x) = V c (Pipeline.arrRef spec0 0) k
  refine congrArg _ ?_
  funext a
  apply Fin.ext
  match a with
  | ⟨0, _⟩ => show win0_0.index t (0 : Fin 2) * 2000 + 1 * (x 0).val = (k 0).val; omega
  | ⟨1, _⟩ => show win0_0.index t (1 : Fin 2) * 128 + 1 * (x 1).val = (k 1).val; omega

/-- Point t's block of the neighbour sums is rows 2000·t … 2000·t + 1999 of the array. -/
theorem rows0_1 (V : (c : Dev nD) → (b : Ref sig .tc) → Buf (Elt Ideal) ((c : Thread nD τ).loc b)) (c : Dev nD) (t : Fin cfg0.N)
    (x : S2000x128.Idx) (k : S100000x128.Idx) (hk0 : (k 0).val = 2000 * t.val + (x 0).val) (hk1 : (k 1).val = (x 1).val) :
    (Gen.iblk0 (F := Ideal) V c 1 t : Vec Ideal S2000x128 .f32) x = (V c (Pipeline.arrRef spec0 1) : S100000x128.Idx → EReal) k := by
  obtain ⟨a00, a01, a10, a11, a20, a21, -⟩ := index_maps0 t
  unfold Gen.iblk0
  rw [View.read_apply]
  show V c (Pipeline.arrRef spec0 1) (((cfg0.win 1).blk t).view.emb x) = V c (Pipeline.arrRef spec0 1) k
  refine congrArg _ ?_
  funext a
  apply Fin.ext
  match a with
  | ⟨0, _⟩ => show win0_1.index t (0 : Fin 2) * 2000 + 1 * (x 0).val = (k 0).val; omega
  | ⟨1, _⟩ => show win0_1.index t (1 : Fin 2) * 128 + 1 * (x 1).val = (k 1).val; omega

/-- Point t's block of the reciprocal degrees is rows 2000·t … 2000·t + 1999 of the array. -/
theorem rows0_2 (V : (c : Dev nD) → (b : Ref sig .tc) → Buf (Elt Ideal) ((c : Thread nD τ).loc b)) (c : Dev nD) (t : Fin cfg0.N)
    (x : S2000x1.Idx) (k : S100000x1.Idx) (hk0 : (k 0).val = 2000 * t.val + (x 0).val) (hk1 : (k 1).val = (x 1).val) :
    (Gen.iblk0 (F := Ideal) V c 2 t : Vec Ideal S2000x1 .f32) x = (V c (Pipeline.arrRef spec0 2) : S100000x1.Idx → EReal) k := by
  obtain ⟨a00, a01, a10, a11, a20, a21, -⟩ := index_maps0 t
  unfold Gen.iblk0
  rw [View.read_apply]
  show V c (Pipeline.arrRef spec0 2) (((cfg0.win 2).blk t).view.emb x) = V c (Pipeline.arrRef spec0 2) k
  refine congrArg _ ?_
  funext a
  apply Fin.ext
  match a with
  | ⟨0, _⟩ => show win0_2.index t (0 : Fin 2) * 2000 + 1 * (x 0).val = (k 0).val; omega
  | ⟨1, _⟩ => show win0_2.index t (1 : Fin 2) * 1 + 1 * (x 1).val = (k 1).val; omega

/-- Every point's block of the self weights is the whole array. -/
theorem whole0_3 (V : (c : Dev nD) → (b : Ref sig .tc) → Buf (Elt Ideal) ((c : Thread nD τ).loc b)) (c : Dev nD) (t : Fin cfg0.N) (x : S128x128.Idx) :
    (Gen.iblk0 (F := Ideal) V c 3 t : Vec Ideal S128x128 .f32) x = (V c (Pipeline.arrRef spec0 3) : S128x128.Idx → EReal) x := by
  obtain ⟨-, -, -, -, -, -, a30, a31, a40, a41, a50, a51, -⟩ := index_maps0 t
  unfold Gen.iblk0
  rw [View.read_apply]
  show V c (Pipeline.arrRef spec0 3) (((cfg0.win 3).blk t).view.emb x) = V c (Pipeline.arrRef spec0 3) x
  refine congrArg _ ?_
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

/-- Every point's block of the neighbour weights is the whole array. -/
theorem whole0_4 (V : (c : Dev nD) → (b : Ref sig .tc) → Buf (Elt Ideal) ((c : Thread nD τ).loc b)) (c : Dev nD) (t : Fin cfg0.N) (x : S128x128.Idx) :
    (Gen.iblk0 (F := Ideal) V c 4 t : Vec Ideal S128x128 .f32) x = (V c (Pipeline.arrRef spec0 4) : S128x128.Idx → EReal) x := by
  obtain ⟨-, -, -, -, -, -, a30, a31, a40, a41, a50, a51, -⟩ := index_maps0 t
  unfold Gen.iblk0
  rw [View.read_apply]
  show V c (Pipeline.arrRef spec0 4) (((cfg0.win 4).blk t).view.emb x) = V c (Pipeline.arrRef spec0 4) x
  refine congrArg _ ?_
  funext a
  apply Fin.ext
  match a with
  | ⟨0, _⟩ => show win0_4.index t (0 : Fin 2) * 128 + 1 * (x 0).val = (x 0).val; omega
  | ⟨1, _⟩ => show win0_4.index t (1 : Fin 2) * 128 + 1 * (x 1).val = (x 1).val; omega

/-- Every point's block of the bias row is the whole array. -/
theorem whole0_5 (V : (c : Dev nD) → (b : Ref sig .tc) → Buf (Elt Ideal) ((c : Thread nD τ).loc b)) (c : Dev nD) (t : Fin cfg0.N) (x : S1x128.Idx) :
    (Gen.iblk0 (F := Ideal) V c 5 t : Vec Ideal S1x128 .f32) x = (V c (Pipeline.arrRef spec0 5) : S1x128.Idx → EReal) x := by
  obtain ⟨-, -, -, -, -, -, a30, a31, a40, a41, a50, a51, -⟩ := index_maps0 t
  unfold Gen.iblk0
  rw [View.read_apply]
  show V c (Pipeline.arrRef spec0 5) (((cfg0.win 5).blk t).view.emb x) = V c (Pipeline.arrRef spec0 5) x
  refine congrArg _ ?_
  funext a
  apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

/-- Blocks against arrays, over variables: if the three row-indexed blocks are rows 2000·t … 2000·t + 1999 of three
    arrays and the weight and bias blocks are whole arrays, then entry (r, j) of the payload of the blocks is entry
    (2000·t + r, j) of the hidden layer of the arrays. -/
theorem point0 (hpay : ∀ (v0 : Vec Ideal S2000x128 .f32) (v2 : Vec Ideal S2000x128 .f32) (v4 : Vec Ideal S2000x1 .f32)
      (v9 v11 : Vec Ideal S128x128 .f32) (v16 : Vec Ideal S1x128 .f32) (r : Fin 2000) (j : Fin 128),
      Gen.k0_pay1 (F := Ideal) v0 v2 v4 v9 v11 v16 (ix2 r j) = Cert.Sage.unitRelu (Ideal.ofBits .f32 0x2B8CBCCC#32) (Cert.Sage.denseScaled v0 v2 v4 v9 v11 v16) r j)
    (x0 : Vec Ideal S2000x128 .f32) (x1 : Vec Ideal S2000x128 .f32) (x2 : Vec Ideal S2000x1 .f32)
    (x3 x4 : Vec Ideal S128x128 .f32) (x5 : Vec Ideal S1x128 .f32)
    (A0 A1 : S100000x128.Idx → EReal) (A2 : S100000x1.Idx → EReal) (A3 A4 : S128x128.Idx → EReal) (A5 : S1x128.Idx → EReal)
    (t : Nat)
    (e0 : ∀ (x : S2000x128.Idx) (k : S100000x128.Idx), (k 0).val = 2000 * t + (x 0).val → (k 1).val = (x 1).val → x0 x = A0 k)
    (e1 : ∀ (x : S2000x128.Idx) (k : S100000x128.Idx), (k 0).val = 2000 * t + (x 0).val → (k 1).val = (x 1).val → x1 x = A1 k)
    (e2 : ∀ (x : S2000x1.Idx) (k : S100000x1.Idx), (k 0).val = 2000 * t + (x 0).val → (k 1).val = (x 1).val → x2 x = A2 k)
    (e3 : ∀ x : S128x128.Idx, x3 x = A3 x) (e4 : ∀ x : S128x128.Idx, x4 x = A4 x) (e5 : ∀ x : S1x128.Idx, x5 x = A5 x)
    (r : Fin 2000) (j : Fin 128) (i : S100000x128.Idx) (hi0 : (i 0).val = 2000 * t + r.val) (hi1 : (i 1).val = j.val) :
    Gen.k0_pay1 (F := Ideal) x0 x1 x2 x3 x4 x5 (ix2 r j) = Cert.Sage.hiddenScaled (Ideal.ofBits .f32 0x2B8CBCCC#32) A0 A1 A2 A3 A4 A5 i := by
  obtain ⟨ρ, j', rfl⟩ : ∃ (ρ : Fin 100000) (j' : Fin 128), i = ix2 ρ j' := ⟨i 0, i 1, eq_ix2 i⟩
  obtain rfl : j = j' := (Fin.ext hi1).symm
  have hρ : ρ.val = 2000 * t + r.val := hi0
  refine (hpay x0 x1 x2 x3 x4 x5 r j).trans ?_
  show Cert.Sage.unitRelu (Ideal.ofBits .f32 0x2B8CBCCC#32) (Cert.Sage.denseScaled (n := 2000) (o := 128) x0 x1 x2 x3 x4 x5) r j
      = Cert.Sage.unitRelu (Ideal.ofBits .f32 0x2B8CBCCC#32) (Cert.Sage.denseScaled (n := 100000) (o := 128) A0 A1 A2 A3 A4 A5) ρ j
  exact unitRelu_rows (Ideal.ofBits .f32 0x2B8CBCCC#32) _ _ r ρ j (fun j' => denseScaled_rows (n := 2000) (n' := 100000) (o := 128) x0 x1 x2 x3 x4 x5 A0 A1 A2 A3 A4 A5 r ρ j'
      (fun k => e0 (ix2 r k) (ix2 ρ k) hρ rfl) (fun k => e1 (ix2 r k) (ix2 ρ k) hρ rfl) (e2 (ix2 r 0) (ix2 ρ 0) hρ rfl)
      (fun k => e3 (ix2 k j')) (fun k => e4 (ix2 k j')) (e5 (ix2 0 j')))

/-- What point t writes back is block t of the hidden layer of the arrays as the region finds them. -/
theorem flushed0_eq (hpay : ∀ (v0 : Vec Ideal S2000x128 .f32) (v2 : Vec Ideal S2000x128 .f32) (v4 : Vec Ideal S2000x1 .f32)
      (v9 v11 : Vec Ideal S128x128 .f32) (v16 : Vec Ideal S1x128 .f32) (r : Fin 2000) (j : Fin 128),
      Gen.k0_pay1 (F := Ideal) v0 v2 v4 v9 v11 v16 (ix2 r j) = Cert.Sage.unitRelu (Ideal.ofBits .f32 0x2B8CBCCC#32) (Cert.Sage.denseScaled v0 v2 v4 v9 v11 v16) r j) (V : (c : Dev nD) → (b : Ref sig .tc) → Buf (Elt Ideal) ((c : Thread nD τ).loc b)) (c : Dev nD) (t : Fin cfg0.N) :
    (Gen.dat0 (F := Ideal) V c).flushed 6 t = ((cfg0.win 6).blk t).view.read (Elt Ideal) (Cert.Sage.hiddenScaled (Ideal.ofBits .f32 0x2B8CBCCC#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((Gen.dat0 (F := Ideal) V c).after 6 t) = _
  rw [Gen.after0_6]
  unfold Gen.out0_6
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  obtain ⟨-, -, -, -, -, -, -, -, -, -, -, -, a60, a61⟩ := index_maps0 t
  funext y
  obtain ⟨r, j, rfl⟩ : ∃ (r : Fin 2000) (j : Fin 128), y = ix2 r j := ⟨y 0, y 1, eq_ix2 y⟩
  refine point0 hpay (Gen.iblk0 V c 0 t) (Gen.iblk0 V c 1 t) (Gen.iblk0 V c 2 t) (Gen.iblk0 V c 3 t) (Gen.iblk0 V c 4 t) (Gen.iblk0 V c 5 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) t.val
    (rows0_0 V c t) (rows0_1 V c t) (rows0_2 V c t) (whole0_3 V c t) (whole0_4 V c t) (whole0_5 V c t)
    r j (((cfg0.win 6).blk t).view.emb (ix2 r j)) ?_ ?_
  · show win0_6.index t (0 : Fin 2) * 2000 + 1 * r.val = 2000 * t.val + r.val; omega
  · show win0_6.index t (1 : Fin 2) * 128 + 1 * j.val = j.val; omega

/-- An index of the array is in point t's block iff each coordinate is in the block's range on its axis. -/
theorem mem_block0 (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v23).slice (win0_6.rect t)).set ↔ _
  rw [View.set_slice_whole, Rect.mem_set_unit]
  exact Iff.rfl

/-- The fifty blocks tile the array: row ρ lies in the block of point ρ / 2000. -/
theorem covered0 (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  have hN : cfg0.N = 50 := Gen.N_0
  obtain ⟨t, ht⟩ : ∃ t : Fin cfg0.N, t.val = (i 0).val / 2000 := ⟨⟨(i 0).val / 2000, by rw [hN]; omega⟩, rfl⟩
  obtain ⟨-, -, -, -, -, -, -, -, -, -, -, -, a60, a61⟩ := index_maps0 t
  refine ⟨t, Gen.flush0_6 t, ?_⟩
  rw [mem_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The array after the run is the hidden layer of the arrays as the region finds them. -/
theorem final0 (hpay : ∀ (v0 : Vec Ideal S2000x128 .f32) (v2 : Vec Ideal S2000x128 .f32) (v4 : Vec Ideal S2000x1 .f32)
      (v9 v11 : Vec Ideal S128x128 .f32) (v16 : Vec Ideal S1x128 .f32) (r : Fin 2000) (j : Fin 128),
      Gen.k0_pay1 (F := Ideal) v0 v2 v4 v9 v11 v16 (ix2 r j) = Cert.Sage.unitRelu (Ideal.ofBits .f32 0x2B8CBCCC#32) (Cert.Sage.denseScaled v0 v2 v4 v9 v11 v16) r j) (V : (c : Dev nD) → (b : Ref sig .tc) → Buf (Elt Ideal) ((c : Thread nD τ).loc b)) (c : Dev nD) :
    (Gen.dat0 (F := Ideal) V c).arrAt 6 cfg0.N = Cert.Sage.hiddenScaled (Ideal.ofBits .f32 0x2B8CBCCC#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (Gen.dat0 (F := Ideal) V c).arrAt_eq_of_cover 6 (Cert.Sage.hiddenScaled (Ideal.ofBits .f32 0x2B8CBCCC#32) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))
    (fun t _ => flushed0_eq hpay V c t) covered0

end Cert.KernelIdeal.Blocks

end
-- ==== Proof.Blocks1.lean ====
/-
  From blocks to whole arrays, second layer (a hidden layer: dense transform, clamp at zero, division of each row
  by its Euclidean norm clamped below by a small constant).

  The region runs over a grid of 50 points.  Point t loads rows 2000·t … 2000·t + 1999 of the features, of the
  neighbour sums and of the column of reciprocal degrees, together with the whole of the two weight matrices and
  of the bias row, and writes back rows 2000·t … 2000·t + 1999 of the result.  Entry (r, j) of the dense transform
  depends on row r of the features, of the sums and of the reciprocal degrees only, and on column j of the weights
  and of the bias; the clamp is entrywise and the norm of row r is a sum over row r of the transform.  So the
  hidden layer of the loaded blocks at row r is the hidden layer of the whole arrays at row 2000·t + r, that is,
  what point t writes back is block t of ONE function of the whole arrays.  The fifty blocks tile the 100000 rows
  (row ρ lies in block ρ / 2000), hence the array after the run is that function.
-/
import proofs.«103235_j68143951118848_2_alg».proof.Proof.FrameKernelIdeal
import proofs.«103235_j68143951118848_2_alg».proof.Proof.Spec
import proofs.«103235_j68143951118848_2_alg».proof.Proof.BlockRows
import Idealize.ShloMosaic.Lib.Pipeline.Value
import Idealize.ShloMosaic.Lib.ValueIdx

noncomputable section

namespace Cert.KernelIdeal.Blocks

open Idealize.ShloMosaic Idealize.ShloMosaic.ValueIdx Idealize.ShloMosaic.TcCoe Cert.KernelIdeal
open Idealize.ShloMosaic.Pipeline (Dat)

/-- The windows' index maps, decided once over the fifty grid points: at point t the three row-blocked inputs and
    the output sit at block row t, block column 0; the weights and the bias at block (0, 0). -/
theorem index_maps1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Point t's block of the features is rows 2000·t … 2000·t + 1999 of the array. -/
theorem rows1_0 (V : (c : Dev nD) → (b : Ref sig .tc) → Buf (Elt Ideal) ((c : Thread nD τ).loc b)) (c : Dev nD) (t : Fin cfg1.N)
    (x : S2000x128.Idx) (k : S100000x128.Idx) (hk0 : (k 0).val = 2000 * t.val + (x 0).val) (hk1 : (k 1).val = (x 1).val) :
    (Gen.iblk1 (F := Ideal) V c 0 t : Vec Ideal S2000x128 .bf16) x = (V c (Pipeline.arrRef spec1 0) : S100000x128.Idx → EReal) k := by
  obtain ⟨a00, a01, a10, a11, a20, a21, -⟩ := index_maps1 t
  unfold Gen.iblk1
  rw [View.read_apply]
  show V c (Pipeline.arrRef spec1 0) (((cfg1.win 0).blk t).view.emb x) = V c (Pipeline.arrRef spec1 0) k
  refine congrArg _ ?_
  funext a
  apply Fin.ext
  match a with
  | ⟨0, _⟩ => show win1_0.index t (0 : Fin 2) * 2000 + 1 * (x 0).val = (k 0).val; omega
  | ⟨1, _⟩ => show win1_0.index t (1 : Fin 2) * 128 + 1 * (x 1).val = (k 1).val; omega

/-- Point t's block of the neighbour sums is rows 2000·t … 2000·t + 1999 of the array. -/
theorem rows1_1 (V : (c : Dev nD) → (b : Ref sig .tc) → Buf (Elt Ideal) ((c : Thread nD τ).loc b)) (c : Dev nD) (t : Fin cfg1.N)
    (x : S2000x128.Idx) (k : S100000x128.Idx) (hk0 : (k 0).val = 2000 * t.val + (x 0).val) (hk1 : (k 1).val = (x 1).val) :
    (Gen.iblk1 (F := Ideal) V c 1 t : Vec Ideal S2000x128 .f32) x = (V c (Pipeline.arrRef spec1 1) : S100000x128.Idx → EReal) k := by
  obtain ⟨a00, a01, a10, a11, a20, a21, -⟩ := index_maps1 t
  unfold Gen.iblk1
  rw [View.read_apply]
  show V c (Pipeline.arrRef spec1 1) (((cfg1.win 1).blk t).view.emb x) = V c (Pipeline.arrRef spec1 1) k
  refine congrArg _ ?_
  funext a
  apply Fin.ext
  match a with
  | ⟨0, _⟩ => show win1_1.index t (0 : Fin 2) * 2000 + 1 * (x 0).val = (k 0).val; omega
  | ⟨1, _⟩ => show win1_1.index t (1 : Fin 2) * 128 + 1 * (x 1).val = (k 1).val; omega

/-- Point t's block of the reciprocal degrees is rows 2000·t … 2000·t + 1999 of the array. -/
theorem rows1_2 (V : (c : Dev nD) → (b : Ref sig .tc) → Buf (Elt Ideal) ((c : Thread nD τ).loc b)) (c : Dev nD) (t : Fin cfg1.N)
    (x : S2000x1.Idx) (k : S100000x1.Idx) (hk0 : (k 0).val = 2000 * t.val + (x 0).val) (hk1 : (k 1).val = (x 1).val) :
    (Gen.iblk1 (F := Ideal) V c 2 t : Vec Ideal S2000x1 .f32) x = (V c (Pipeline.arrRef spec1 2) : S100000x1.Idx → EReal) k := by
  obtain ⟨a00, a01, a10, a11, a20, a21, -⟩ := index_maps1 t
  unfold Gen.iblk1
  rw [View.read_apply]
  show V c (Pipeline.arrRef spec1 2) (((cfg1.win 2).blk t).view.emb x) = V c (Pipeline.arrRef spec1 2) k
  refine congrArg _ ?_
  funext a
  apply Fin.ext
  match a with
  | ⟨0, _⟩ => show win1_2.index t (0 : Fin 2) * 2000 + 1 * (x 0).val = (k 0).val; omega
  | ⟨1, _⟩ => show win1_2.index t (1 : Fin 2) * 1 + 1 * (x 1).val = (k 1).val; omega

/-- Every point's block of the self weights is the whole array. -/
theorem whole1_3 (V : (c : Dev nD) → (b : Ref sig .tc) → Buf (Elt Ideal) ((c : Thread nD τ).loc b)) (c : Dev nD) (t : Fin cfg1.N) (x : S128x128.Idx) :
    (Gen.iblk1 (F := Ideal) V c 3 t : Vec Ideal S128x128 .f32) x = (V c (Pipeline.arrRef spec1 3) : S128x128.Idx → EReal) x := by
  obtain ⟨-, -, -, -, -, -, a30, a31, a40, a41, a50, a51, -⟩ := index_maps1 t
  unfold Gen.iblk1
  rw [View.read_apply]
  show V c (Pipeline.arrRef spec1 3) (((cfg1.win 3).blk t).view.emb x) = V c (Pipeline.arrRef spec1 3) x
  refine congrArg _ ?_
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- Every point's block of the neighbour weights is the whole array. -/
theorem whole1_4 (V : (c : Dev nD) → (b : Ref sig .tc) → Buf (Elt Ideal) ((c : Thread nD τ).loc b)) (c : Dev nD) (t : Fin cfg1.N) (x : S128x128.Idx) :
    (Gen.iblk1 (F := Ideal) V c 4 t : Vec Ideal S128x128 .f32) x = (V c (Pipeline.arrRef spec1 4) : S128x128.Idx → EReal) x := by
  obtain ⟨-, -, -, -, -, -, a30, a31, a40, a41, a50, a51, -⟩ := index_maps1 t
  unfold Gen.iblk1
  rw [View.read_apply]
  show V c (Pipeline.arrRef spec1 4) (((cfg1.win 4).blk t).view.emb x) = V c (Pipeline.arrRef spec1 4) x
  refine congrArg _ ?_
  funext a
  apply Fin.ext
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- Every point's block of the bias row is the whole array. -/
theorem whole1_5 (V : (c : Dev nD) → (b : Ref sig .tc) → Buf (Elt Ideal) ((c : Thread nD τ).loc b)) (c : Dev nD) (t : Fin cfg1.N) (x : S1x128.Idx) :
    (Gen.iblk1 (F := Ideal) V c 5 t : Vec Ideal S1x128 .f32) x = (V c (Pipeline.arrRef spec1 5) : S1x128.Idx → EReal) x := by
  obtain ⟨-, -, -, -, -, -, a30, a31, a40, a41, a50, a51, -⟩ := index_maps1 t
  unfold Gen.iblk1
  rw [View.read_apply]
  show V c (Pipeline.arrRef spec1 5) (((cfg1.win 5).blk t).view.emb x) = V c (Pipeline.arrRef spec1 5) x
  refine congrArg _ ?_
  funext a
  apply Fin.ext
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- Blocks against arrays, over variables: if the three row-indexed blocks are rows 2000·t … 2000·t + 1999 of three
    arrays and the weight and bias blocks are whole arrays, then entry (r, j) of the payload of the blocks is entry
    (2000·t + r, j) of the hidden layer of the arrays. -/
theorem point1 (hpay : ∀ (v0 : Vec Ideal S2000x128 .bf16) (v2 : Vec Ideal S2000x128 .f32) (v4 : Vec Ideal S2000x1 .f32)
      (v9 v11 : Vec Ideal S128x128 .f32) (v16 : Vec Ideal S1x128 .f32) (r : Fin 2000) (j : Fin 128),
      Gen.k1_pay1 (F := Ideal) v0 v2 v4 v9 v11 v16 (ix2 r j) = Cert.Sage.unitRelu (Ideal.ofBits .f32 0x2B8CBCCC#32) (Cert.Sage.denseScaled v0 v2 v4 v9 v11 v16) r j)
    (x0 : Vec Ideal S2000x128 .bf16) (x1 : Vec Ideal S2000x128 .f32) (x2 : Vec Ideal S2000x1 .f32)
    (x3 x4 : Vec Ideal S128x128 .f32) (x5 : Vec Ideal S1x128 .f32)
    (A0 A1 : S100000x128.Idx → EReal) (A2 : S100000x1.Idx → EReal) (A3 A4 : S128x128.Idx → EReal) (A5 : S1x128.Idx → EReal)
    (t : Nat)
    (e0 : ∀ (x : S2000x128.Idx) (k : S100000x128.Idx), (k 0).val = 2000 * t + (x 0).val → (k 1).val = (x 1).val → x0 x = A0 k)
    (e1 : ∀ (x : S2000x128.Idx) (k : S100000x128.Idx), (k 0).val = 2000 * t + (x 0).val → (k 1).val = (x 1).val → x1 x = A1 k)
    (e2 : ∀ (x : S2000x1.Idx) (k : S100000x1.Idx), (k 0).val = 2000 * t + (x 0).val → (k 1).val = (x 1).val → x2 x = A2 k)
    (e3 : ∀ x : S128x128.Idx, x3 x = A3 x) (e4 : ∀ x : S128x128.Idx, x4 x = A4 x) (e5 : ∀ x : S1x128.Idx, x5 x = A5 x)
    (r : Fin 2000) (j : Fin 128) (i : S100000x128.Idx) (hi0 : (i 0).val = 2000 * t + r.val) (hi1 : (i 1).val = j.val) :
    Gen.k1_pay1 (F := Ideal) x0 x1 x2 x3 x4 x5 (ix2 r j) = Cert.Sage.hiddenScaled (Ideal.ofBits .f32 0x2B8CBCCC#32) A0 A1 A2 A3 A4 A5 i := by
  obtain ⟨ρ, j', rfl⟩ : ∃ (ρ : Fin 100000) (j' : Fin 128), i = ix2 ρ j' := ⟨i 0, i 1, eq_ix2 i⟩
  obtain rfl : j = j' := (Fin.ext hi1).symm
  have hρ : ρ.val = 2000 * t + r.val := hi0
  refine (hpay x0 x1 x2 x3 x4 x5 r j).trans ?_
  show Cert.Sage.unitRelu (Ideal.ofBits .f32 0x2B8CBCCC#32) (Cert.Sage.denseScaled (n := 2000) (o := 128) x0 x1 x2 x3 x4 x5) r j
      = Cert.Sage.unitRelu (Ideal.ofBits .f32 0x2B8CBCCC#32) (Cert.Sage.denseScaled (n := 100000) (o := 128) A0 A1 A2 A3 A4 A5) ρ j
  exact unitRelu_rows (Ideal.ofBits .f32 0x2B8CBCCC#32) _ _ r ρ j (fun j' => denseScaled_rows (n := 2000) (n' := 100000) (o := 128) x0 x1 x2 x3 x4 x5 A0 A1 A2 A3 A4 A5 r ρ j'
      (fun k => e0 (ix2 r k) (ix2 ρ k) hρ rfl) (fun k => e1 (ix2 r k) (ix2 ρ k) hρ rfl) (e2 (ix2 r 0) (ix2 ρ 0) hρ rfl)
      (fun k => e3 (ix2 k j')) (fun k => e4 (ix2 k j')) (e5 (ix2 0 j')))

/-- What point t writes back is block t of the hidden layer of the arrays as the region finds them. -/
theorem flushed1_eq (hpay : ∀ (v0 : Vec Ideal S2000x128 .bf16) (v2 : Vec Ideal S2000x128 .f32) (v4 : Vec Ideal S2000x1 .f32)
      (v9 v11 : Vec Ideal S128x128 .f32) (v16 : Vec Ideal S1x128 .f32) (r : Fin 2000) (j : Fin 128),
      Gen.k1_pay1 (F := Ideal) v0 v2 v4 v9 v11 v16 (ix2 r j) = Cert.Sage.unitRelu (Ideal.ofBits .f32 0x2B8CBCCC#32) (Cert.Sage.denseScaled v0 v2 v4 v9 v11 v16) r j) (V : (c : Dev nD) → (b : Ref sig .tc) → Buf (Elt Ideal) ((c : Thread nD τ).loc b)) (c : Dev nD) (t : Fin cfg1.N) :
    (Gen.dat1 (F := Ideal) V c).flushed 6 t = ((cfg1.win 6).blk t).view.read (Elt Ideal) (Cert.Sage.hiddenScaled (Ideal.ofBits .f32 0x2B8CBCCC#32) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((Gen.dat1 (F := Ideal) V c).after 6 t) = _
  rw [Gen.after1_6]
  unfold Gen.out1_6
  rw [View.canon_unit_zero offsets_zero]
  simp only [View.ld_unit_zero (S := S2000x128) offsets_zero, View.ld_unit_zero (S := S2000x1) offsets_zero,
    View.ld_unit_zero (S := S128x128) offsets_zero, View.ld_unit_zero (S := S1x128) offsets_zero]
  obtain ⟨-, -, -, -, -, -, -, -, -, -, -, -, a60, a61⟩ := index_maps1 t
  funext y
  obtain ⟨r, j, rfl⟩ : ∃ (r : Fin 2000) (j : Fin 128), y = ix2 r j := ⟨y 0, y 1, eq_ix2 y⟩
  refine point1 hpay (Gen.iblk1 V c 0 t) (Gen.iblk1 V c 1 t) (Gen.iblk1 V c 2 t) (Gen.iblk1 V c 3 t) (Gen.iblk1 V c 4 t) (Gen.iblk1 V c 5 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) t.val
    (rows1_0 V c t) (rows1_1 V c t) (rows1_2 V c t) (whole1_3 V c t) (whole1_4 V c t) (whole1_5 V c t)
    r j (((cfg1.win 6).blk t).view.emb (ix2 r j)) ?_ ?_
  · show win1_6.index t (0 : Fin 2) * 2000 + 1 * r.val = 2000 * t.val + r.val; omega
  · show win1_6.index t (1 : Fin 2) * 128 + 1 * j.val = j.val; omega

/-- An index of the array is in point t's block iff each coordinate is in the block's range on its axis. -/
theorem mem_block1 (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v37).slice (win1_6.rect t)).set ↔ _
  rw [View.set_slice_whole, Rect.mem_set_unit]
  exact Iff.rfl

/-- The fifty blocks tile the array: row ρ lies in the block of point ρ / 2000. -/
theorem covered1 (i : S100000x128.Idx) :
    ∃ t : Fin cfg1.N, (cfg1.win 6).flush t = true ∧ i ∈ ((cfg1.win 6).blk t).view.set := by
  have hi0 : (i 0).val < 100000 := idx2_lt0 i
  have hi1 : (i 1).val < 128 := idx2_lt1 i
  have hN : cfg1.N = 50 := Gen.N_1
  obtain ⟨t, ht⟩ : ∃ t : Fin cfg1.N, t.val = (i 0).val / 2000 := ⟨⟨(i 0).val / 2000, by rw [hN]; omega⟩, rfl⟩
  obtain ⟨-, -, -, -, -, -, -, -, -, -, -, -, a60, a61⟩ := index_maps1 t
  refine ⟨t, Gen.flush1_6 t, ?_⟩
  rw [mem_block1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The array after the run is the hidden layer of the arrays as the region finds them. -/
theorem final1 (hpay : ∀ (v0 : Vec Ideal S2000x128 .bf16) (v2 : Vec Ideal S2000x128 .f32) (v4 : Vec Ideal S2000x1 .f32)
      (v9 v11 : Vec Ideal S128x128 .f32) (v16 : Vec Ideal S1x128 .f32) (r : Fin 2000) (j : Fin 128),
      Gen.k1_pay1 (F := Ideal) v0 v2 v4 v9 v11 v16 (ix2 r j) = Cert.Sage.unitRelu (Ideal.ofBits .f32 0x2B8CBCCC#32) (Cert.Sage.denseScaled v0 v2 v4 v9 v11 v16) r j) (V : (c : Dev nD) → (b : Ref sig .tc) → Buf (Elt Ideal) ((c : Thread nD τ).loc b)) (c : Dev nD) :
    (Gen.dat1 (F := Ideal) V c).arrAt 6 cfg1.N = Cert.Sage.hiddenScaled (Ideal.ofBits .f32 0x2B8CBCCC#32) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (Gen.dat1 (F := Ideal) V c).arrAt_eq_of_cover 6 (Cert.Sage.hiddenScaled (Ideal.ofBits .f32 0x2B8CBCCC#32) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)))
    (fun t _ => flushed1_eq hpay V c t) covered1

end Cert.KernelIdeal.Blocks

end
-- ==== Proof.Blocks2.lean ====
/-
  From blocks to whole arrays, third layer (the last dense transform).

  The region runs over a grid of 50 points.  Point t loads rows 2000·t … 2000·t + 1999 of the features, of the
  neighbour sums and of the column of reciprocal degrees, together with the whole of the two weight matrices and
  of the bias row, and writes back rows 2000·t … 2000·t + 1999 of the result.  Entry (r, j) of the dense transform
  depends on row r of the features, of the sums and of the reciprocal degrees only, and on column j of the weights
  and of the bias: so the transform of the loaded blocks at row r is the transform of the whole arrays at row
  2000·t + r, that is, what point t writes back is block t of ONE function of the whole arrays.  The fifty blocks
  tile the 100000 rows (row ρ lies in block ρ / 2000), hence the array after the run is that function.
-/
import proofs.«103235_j68143951118848_2_alg».proof.Proof.FrameKernelIdeal
import proofs.«103235_j68143951118848_2_alg».proof.Proof.Spec
import proofs.«103235_j68143951118848_2_alg».proof.Proof.BlockRows
import Idealize.ShloMosaic.Lib.Pipeline.Value
import Idealize.ShloMosaic.Lib.ValueIdx

noncomputable section

namespace Cert.KernelIdeal.Blocks

open Idealize.ShloMosaic Idealize.ShloMosaic.ValueIdx Idealize.ShloMosaic.TcCoe Cert.KernelIdeal
open Idealize.ShloMosaic.Pipeline (Dat)

/-- The windows' index maps, decided once over the fifty grid points: at point t the three row-blocked inputs and
    the output sit at block row t, block column 0; the weights and the bias at block (0, 0). -/
theorem index_maps2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Point t's block of the features is rows 2000·t … 2000·t + 1999 of the array. -/
theorem rows2_0 (V : (c : Dev nD) → (b : Ref sig .tc) → Buf (Elt Ideal) ((c : Thread nD τ).loc b)) (c : Dev nD) (t : Fin cfg2.N)
    (x : S2000x128.Idx) (k : S100000x128.Idx) (hk0 : (k 0).val = 2000 * t.val + (x 0).val) (hk1 : (k 1).val = (x 1).val) :
    (Gen.iblk2 (F := Ideal) V c 0 t : Vec Ideal S2000x128 .bf16) x = (V c (Pipeline.arrRef spec2 0) : S100000x128.Idx → EReal) k := by
  obtain ⟨a00, a01, a10, a11, a20, a21, -⟩ := index_maps2 t
  unfold Gen.iblk2
  rw [View.read_apply]
  show V c (Pipeline.arrRef spec2 0) (((cfg2.win 0).blk t).view.emb x) = V c (Pipeline.arrRef spec2 0) k
  refine congrArg _ ?_
  funext a
  apply Fin.ext
  match a with
  | ⟨0, _⟩ => show win2_0.index t (0 : Fin 2) * 2000 + 1 * (x 0).val = (k 0).val; omega
  | ⟨1, _⟩ => show win2_0.index t (1 : Fin 2) * 128 + 1 * (x 1).val = (k 1).val; omega

/-- Point t's block of the neighbour sums is rows 2000·t … 2000·t + 1999 of the array. -/
theorem rows2_1 (V : (c : Dev nD) → (b : Ref sig .tc) → Buf (Elt Ideal) ((c : Thread nD τ).loc b)) (c : Dev nD) (t : Fin cfg2.N)
    (x : S2000x128.Idx) (k : S100000x128.Idx) (hk0 : (k 0).val = 2000 * t.val + (x 0).val) (hk1 : (k 1).val = (x 1).val) :
    (Gen.iblk2 (F := Ideal) V c 1 t : Vec Ideal S2000x128 .f32) x = (V c (Pipeline.arrRef spec2 1) : S100000x128.Idx → EReal) k := by
  obtain ⟨a00, a01, a10, a11, a20, a21, -⟩ := index_maps2 t
  unfold Gen.iblk2
  rw [View.read_apply]
  show V c (Pipeline.arrRef spec2 1) (((cfg2.win 1).blk t).view.emb x) = V c (Pipeline.arrRef spec2 1) k
  refine congrArg _ ?_
  funext a
  apply Fin.ext
  match a with
  | ⟨0, _⟩ => show win2_1.index t (0 : Fin 2) * 2000 + 1 * (x 0).val = (k 0).val; omega
  | ⟨1, _⟩ => show win2_1.index t (1 : Fin 2) * 128 + 1 * (x 1).val = (k 1).val; omega

/-- Point t's block of the reciprocal degrees is rows 2000·t … 2000·t + 1999 of the array. -/
theorem rows2_2 (V : (c : Dev nD) → (b : Ref sig .tc) → Buf (Elt Ideal) ((c : Thread nD τ).loc b)) (c : Dev nD) (t : Fin cfg2.N)
    (x : S2000x1.Idx) (k : S100000x1.Idx) (hk0 : (k 0).val = 2000 * t.val + (x 0).val) (hk1 : (k 1).val = (x 1).val) :
    (Gen.iblk2 (F := Ideal) V c 2 t : Vec Ideal S2000x1 .f32) x = (V c (Pipeline.arrRef spec2 2) : S100000x1.Idx → EReal) k := by
  obtain ⟨a00, a01, a10, a11, a20, a21, -⟩ := index_maps2 t
  unfold Gen.iblk2
  rw [View.read_apply]
  show V c (Pipeline.arrRef spec2 2) (((cfg2.win 2).blk t).view.emb x) = V c (Pipeline.arrRef spec2 2) k
  refine congrArg _ ?_
  funext a
  apply Fin.ext
  match a with
  | ⟨0, _⟩ => show win2_2.index t (0 : Fin 2) * 2000 + 1 * (x 0).val = (k 0).val; omega
  | ⟨1, _⟩ => show win2_2.index t (1 : Fin 2) * 1 + 1 * (x 1).val = (k 1).val; omega

/-- Every point's block of the self weights is the whole array. -/
theorem whole2_3 (V : (c : Dev nD) → (b : Ref sig .tc) → Buf (Elt Ideal) ((c : Thread nD τ).loc b)) (c : Dev nD) (t : Fin cfg2.N) (x : S128x40.Idx) :
    (Gen.iblk2 (F := Ideal) V c 3 t : Vec Ideal S128x40 .f32) x = (V c (Pipeline.arrRef spec2 3) : S128x40.Idx → EReal) x := by
  obtain ⟨-, -, -, -, -, -, a30, a31, a40, a41, a50, a51, -⟩ := index_maps2 t
  unfold Gen.iblk2
  rw [View.read_apply]
  show V c (Pipeline.arrRef spec2 3) (((cfg2.win 3).blk t).view.emb x) = V c (Pipeline.arrRef spec2 3) x
  refine congrArg _ ?_
  funext a
  apply Fin.ext
  match a with
  | ⟨0, _⟩ => show win2_3.index t (0 : Fin 2) * 128 + 1 * (x 0).val = (x 0).val; omega
  | ⟨1, _⟩ => show win2_3.index t (1 : Fin 2) * 40 + 1 * (x 1).val = (x 1).val; omega

/-- Every point's block of the neighbour weights is the whole array. -/
theorem whole2_4 (V : (c : Dev nD) → (b : Ref sig .tc) → Buf (Elt Ideal) ((c : Thread nD τ).loc b)) (c : Dev nD) (t : Fin cfg2.N) (x : S128x40.Idx) :
    (Gen.iblk2 (F := Ideal) V c 4 t : Vec Ideal S128x40 .f32) x = (V c (Pipeline.arrRef spec2 4) : S128x40.Idx → EReal) x := by
  obtain ⟨-, -, -, -, -, -, a30, a31, a40, a41, a50, a51, -⟩ := index_maps2 t
  unfold Gen.iblk2
  rw [View.read_apply]
  show V c (Pipeline.arrRef spec2 4) (((cfg2.win 4).blk t).view.emb x) = V c (Pipeline.arrRef spec2 4) x
  refine congrArg _ ?_
  funext a
  apply Fin.ext
  match a with
  | ⟨0, _⟩ => show win2_4.index t (0 : Fin 2) * 128 + 1 * (x 0).val = (x 0).val; omega
  | ⟨1, _⟩ => show win2_4.index t (1 : Fin 2) * 40 + 1 * (x 1).val = (x 1).val; omega

/-- Every point's block of the bias row is the whole array. -/
theorem whole2_5 (V : (c : Dev nD) → (b : Ref sig .tc) → Buf (Elt Ideal) ((c : Thread nD τ).loc b)) (c : Dev nD) (t : Fin cfg2.N) (x : S1x40.Idx) :
    (Gen.iblk2 (F := Ideal) V c 5 t : Vec Ideal S1x40 .f32) x = (V c (Pipeline.arrRef spec2 5) : S1x40.Idx → EReal) x := by
  obtain ⟨-, -, -, -, -, -, a30, a31, a40, a41, a50, a51, -⟩ := index_maps2 t
  unfold Gen.iblk2
  rw [View.read_apply]
  show V c (Pipeline.arrRef spec2 5) (((cfg2.win 5).blk t).view.emb x) = V c (Pipeline.arrRef spec2 5) x
  refine congrArg _ ?_
  funext a
  apply Fin.ext
  match a with
  | ⟨0, _⟩ => show win2_5.index t (0 : Fin 2) * 1 + 1 * (x 0).val = (x 0).val; omega
  | ⟨1, _⟩ => show win2_5.index t (1 : Fin 2) * 40 + 1 * (x 1).val = (x 1).val; omega

/-- Blocks against arrays, over variables: if the three row-indexed blocks are rows 2000·t … 2000·t + 1999 of three
    arrays and the weight and bias blocks are whole arrays, then entry (r, j) of the payload of the blocks is entry
    (2000·t + r, j) of the dense transform of the arrays. -/
theorem point2 (hpay : ∀ (v0 : Vec Ideal S2000x128 .bf16) (v2 : Vec Ideal S2000x128 .f32) (v4 : Vec Ideal S2000x1 .f32)
      (v9 v11 : Vec Ideal S128x40 .f32) (v16 : Vec Ideal S1x40 .f32) (r : Fin 2000) (j : Fin 40),
      Gen.k2_pay1 (F := Ideal) v0 v2 v4 v9 v11 v16 (ix2 r j) = Cert.Sage.denseScaled v0 v2 v4 v9 v11 v16 r j)
    (x0 : Vec Ideal S2000x128 .bf16) (x1 : Vec Ideal S2000x128 .f32) (x2 : Vec Ideal S2000x1 .f32)
    (x3 x4 : Vec Ideal S128x40 .f32) (x5 : Vec Ideal S1x40 .f32)
    (A0 A1 : S100000x128.Idx → EReal) (A2 : S100000x1.Idx → EReal) (A3 A4 : S128x40.Idx → EReal) (A5 : S1x40.Idx → EReal)
    (t : Nat)
    (e0 : ∀ (x : S2000x128.Idx) (k : S100000x128.Idx), (k 0).val = 2000 * t + (x 0).val → (k 1).val = (x 1).val → x0 x = A0 k)
    (e1 : ∀ (x : S2000x128.Idx) (k : S100000x128.Idx), (k 0).val = 2000 * t + (x 0).val → (k 1).val = (x 1).val → x1 x = A1 k)
    (e2 : ∀ (x : S2000x1.Idx) (k : S100000x1.Idx), (k 0).val = 2000 * t + (x 0).val → (k 1).val = (x 1).val → x2 x = A2 k)
    (e3 : ∀ x : S128x40.Idx, x3 x = A3 x) (e4 : ∀ x : S128x40.Idx, x4 x = A4 x) (e5 : ∀ x : S1x40.Idx, x5 x = A5 x)
    (r : Fin 2000) (j : Fin 40) (i : S100000x40.Idx) (hi0 : (i 0).val = 2000 * t + r.val) (hi1 : (i 1).val = j.val) :
    Gen.k2_pay1 (F := Ideal) x0 x1 x2 x3 x4 x5 (ix2 r j) = Cert.Sage.logitsScaled A0 A1 A2 A3 A4 A5 i := by
  obtain ⟨ρ, j', rfl⟩ : ∃ (ρ : Fin 100000) (j' : Fin 40), i = ix2 ρ j' := ⟨i 0, i 1, eq_ix2 i⟩
  obtain rfl : j = j' := (Fin.ext hi1).symm
  have hρ : ρ.val = 2000 * t + r.val := hi0
  refine (hpay x0 x1 x2 x3 x4 x5 r j).trans ?_
  show Cert.Sage.denseScaled (n := 2000) (o := 40) x0 x1 x2 x3 x4 x5 r j = Cert.Sage.denseScaled (n := 100000) (o := 40) A0 A1 A2 A3 A4 A5 ρ j
  exact denseScaled_rows (n := 2000) (n' := 100000) (o := 40) x0 x1 x2 x3 x4 x5 A0 A1 A2 A3 A4 A5 r ρ j
      (fun k => e0 (ix2 r k) (ix2 ρ k) hρ rfl) (fun k => e1 (ix2 r k) (ix2 ρ k) hρ rfl) (e2 (ix2 r 0) (ix2 ρ 0) hρ rfl)
      (fun k => e3 (ix2 k j)) (fun k => e4 (ix2 k j)) (e5 (ix2 0 j))

/-- What point t writes back is block t of the dense transform of the arrays as the region finds them. -/
theorem flushed2_eq (hpay : ∀ (v0 : Vec Ideal S2000x128 .bf16) (v2 : Vec Ideal S2000x128 .f32) (v4 : Vec Ideal S2000x1 .f32)
      (v9 v11 : Vec Ideal S128x40 .f32) (v16 : Vec Ideal S1x40 .f32) (r : Fin 2000) (j : Fin 40),
      Gen.k2_pay1 (F := Ideal) v0 v2 v4 v9 v11 v16 (ix2 r j) = Cert.Sage.denseScaled v0 v2 v4 v9 v11 v16 r j) (V : (c : Dev nD) → (b : Ref sig .tc) → Buf (Elt Ideal) ((c : Thread nD τ).loc b)) (c : Dev nD) (t : Fin cfg2.N) :
    (Gen.dat2 (F := Ideal) V c).flushed 6 t = ((cfg2.win 6).blk t).view.read (Elt Ideal) (Cert.Sage.logitsScaled (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((Gen.dat2 (F := Ideal) V c).after 6 t) = _
  rw [Gen.after2_6]
  unfold Gen.out2_6
  rw [View.canon_unit_zero offsets_zero]
  simp only [View.ld_unit_zero (S := S2000x128) offsets_zero, View.ld_unit_zero (S := S2000x1) offsets_zero,
    View.ld_unit_zero (S := S128x40) offsets_zero, View.ld_unit_zero (S := S1x40) offsets_zero]
  obtain ⟨-, -, -, -, -, -, -, -, -, -, -, -, a60, a61⟩ := index_maps2 t
  funext y
  obtain ⟨r, j, rfl⟩ : ∃ (r : Fin 2000) (j : Fin 40), y = ix2 r j := ⟨y 0, y 1, eq_ix2 y⟩
  refine point2 hpay (Gen.iblk2 V c 0 t) (Gen.iblk2 V c 1 t) (Gen.iblk2 V c 2 t) (Gen.iblk2 V c 3 t) (Gen.iblk2 V c 4 t) (Gen.iblk2 V c 5 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) t.val
    (rows2_0 V c t) (rows2_1 V c t) (rows2_2 V c t) (whole2_3 V c t) (whole2_4 V c t) (whole2_5 V c t)
    r j (((cfg2.win 6).blk t).view.emb (ix2 r j)) ?_ ?_
  · show win2_6.index t (0 : Fin 2) * 2000 + 1 * r.val = 2000 * t.val + r.val; omega
  · show win2_6.index t (1 : Fin 2) * 40 + 1 * j.val = j.val; omega

/-- An index of the array is in point t's block iff each coordinate is in the block's range on its axis. -/
theorem mem_block2 (t : Fin cfg2.N) (i : S100000x40.Idx) :
    i ∈ ((cfg2.win 6).blk t).view.set ↔ ∀ a : Fin 2, win2_6.index t a * S2000x40.size a ≤ (i a).val
      ∧ (i a).val < win2_6.index t a * S2000x40.size a + S2000x40.size a := by
  show i ∈ ((View.whole main_v51).slice (win2_6.rect t)).set ↔ _
  rw [View.set_slice_whole, Rect.mem_set_unit]
  exact Iff.rfl

/-- The fifty blocks tile the array: row ρ lies in the block of point ρ / 2000. -/
theorem covered2 (i : S100000x40.Idx) :
    ∃ t : Fin cfg2.N, (cfg2.win 6).flush t = true ∧ i ∈ ((cfg2.win 6).blk t).view.set := by
  have hi0 : (i 0).val < 100000 := idx2_lt0 i
  have hi1 : (i 1).val < 40 := idx2_lt1 i
  have hN : cfg2.N = 50 := Gen.N_2
  obtain ⟨t, ht⟩ : ∃ t : Fin cfg2.N, t.val = (i 0).val / 2000 := ⟨⟨(i 0).val / 2000, by rw [hN]; omega⟩, rfl⟩
  obtain ⟨-, -, -, -, -, -, -, -, -, -, -, -, a60, a61⟩ := index_maps2 t
  refine ⟨t, Gen.flush2_6 t, ?_⟩
  rw [mem_block2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 40 ≤ (i 1).val ∧ (i 1).val < win2_6.index t (1 : Fin 2) * 40 + 40; omega

/-- The array after the run is the dense transform of the arrays as the region finds them. -/
theorem final2 (hpay : ∀ (v0 : Vec Ideal S2000x128 .bf16) (v2 : Vec Ideal S2000x128 .f32) (v4 : Vec Ideal S2000x1 .f32)
      (v9 v11 : Vec Ideal S128x40 .f32) (v16 : Vec Ideal S1x40 .f32) (r : Fin 2000) (j : Fin 40),
      Gen.k2_pay1 (F := Ideal) v0 v2 v4 v9 v11 v16 (ix2 r j) = Cert.Sage.denseScaled v0 v2 v4 v9 v11 v16 r j) (V : (c : Dev nD) → (b : Ref sig .tc) → Buf (Elt Ideal) ((c : Thread nD τ).loc b)) (c : Dev nD) :
    (Gen.dat2 (F := Ideal) V c).arrAt 6 cfg2.N = Cert.Sage.logitsScaled (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (Gen.dat2 (F := Ideal) V c).arrAt_eq_of_cover 6 (Cert.Sage.logitsScaled (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
    (fun t _ => flushed2_eq hpay V c t) covered2

end Cert.KernelIdeal.Blocks

end
-- ==== Proof.KernelValue.lean ====
/-
  The idealized kernel program's result as the network of its arguments.

  Each region's output array is the layer function (in the grouping that scales the sums by reciprocal degrees) of the
  arrays the region finds at its entry; those are the previous layer's features, their neighbourhood sums, the column
  of reciprocal clamped degrees, the weights and the row of summed biases. A clamped degree is not zero, so the
  scaled grouping is the reference's grouping, and the three regions compose to the network.
-/
import proofs.«103235_j68143951118848_2_alg».proof.Proof.Chain
import proofs.«103235_j68143951118848_2_alg».proof.Proof.Network
import proofs.«103235_j68143951118848_2_alg».proof.Proof.PayHidden
import proofs.«103235_j68143951118848_2_alg».proof.Proof.PayLogits
import proofs.«103235_j68143951118848_2_alg».proof.Proof.Blocks0
import proofs.«103235_j68143951118848_2_alg».proof.Proof.Blocks1
import proofs.«103235_j68143951118848_2_alg».proof.Proof.Blocks2

set_option maxRecDepth 16384

noncomputable section

namespace Cert.KernelIdeal.KernelValue

open Cert.KernelIdeal Cert.KernelIdeal.Gen Cert.KernelIdeal.Chain
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Region 0 leaves the first hidden layer of the features. -/
theorem layer0 : (dat0 (V1 m ρ) c).arrAt 6 cfg0.N = Cert.Sage.hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Blocks.final0 Pay.pay0_apply (V1 m ρ) c, V1_0 m ρ c, V1_1 m ρ c, V1_2 m ρ c, V1_3 m ρ c, V1_4 m ρ c, V1_5 m ρ c]
  unfold Cert.Sage.hiddenLayer
  exact Cert.Sage.hiddenScaled_eq _ _ _ _ (Cert.Sage.degs (m ((c : Thread nD τ).loc main_arg2))) _ _ _ (m ((c : Thread nD τ).loc main_arg4)) (m ((c : Thread nD τ).loc main_arg6))
    (dinvCol_apply _) (fun r => Cert.Sage.degs_ne_zero _ _) (biasRow128_apply _ _)

/-- Region 1 leaves the second hidden layer. -/
theorem layer1 : (dat1 (V3 m ρ) c).arrAt 6 cfg1.N
    = Cert.Sage.hiddenLayer (Cert.Sage.hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) := by
  rw [Blocks.final1 Pay.pay1_apply (V3 m ρ) c, V3_0 m ρ c, V3_1 m ρ c, V3_2 m ρ c, V3_3 m ρ c, V3_4 m ρ c, V3_5 m ρ c, layer0 m ρ c]
  unfold Cert.Sage.hiddenLayer
  exact Cert.Sage.hiddenScaled_eq _ _ _ _ (Cert.Sage.degs (m ((c : Thread nD τ).loc main_arg2))) _ _ _ (m ((c : Thread nD τ).loc main_arg8)) (m ((c : Thread nD τ).loc main_arg10))
    (dinvCol_apply _) (fun r => Cert.Sage.degs_ne_zero _ _) (biasRow128_apply _ _)

set_option maxHeartbeats 4000000 in
/-- Region 2 leaves the network's output. -/
theorem layer2 : (dat2 (V5 m ρ) c).arrAt 6 cfg2.N = Cert.Sage.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Blocks.final2 Pay.pay2_apply (V5 m ρ) c, V5_0 m ρ c, V5_1 m ρ c, V5_2 m ρ c, V5_3 m ρ c, V5_4 m ρ c, V5_5 m ρ c, layer1 m ρ c]
  unfold Cert.Sage.network Cert.Sage.lastLayer
  exact Cert.Sage.logitsScaled_eq _ _ _ (Cert.Sage.degs (m ((c : Thread nD τ).loc main_arg2))) _ _ _ (m ((c : Thread nD τ).loc main_arg12)) (m ((c : Thread nD τ).loc main_arg14))
    (dinvCol_apply _) (fun r => Cert.Sage.degs_ne_zero _ _) (biasRow40_apply _ _)

/-- Every weakly fair execution of the idealized kernel program terminates without a fault, its result buffer at the
    network of the arguments, the arguments as launched. -/
theorem run : θ_run (defs (F := Ideal)) (onTc (τ := τ) (main (F := Ideal))) ⟨m, fun _ => 0, ρ⟩ (fun r => ∀ c : Dev nD,
      r.2.mem ((c.tc : Thread nD τ).loc main_v51) = Cert.Sage.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1.trans (RunValue.W6_result m ρ c)).trans (layer2 m ρ c), (h c).2⟩)
    (RunValue.run_named m ρ)

end Cert.KernelIdeal.KernelValue

end
-- ==== Proof.RefTerm.lean ====
/-
  The reference program's result as three applications of one layer function.

  The reference applies the same array expression to each of the first two layers and a shorter one to the last. One
  hidden layer is: the dense transform (the features times the self weights, plus the self bias repeated down the rows,
  plus the neighbour sums divided row by row by the clamped degrees and then multiplied by the neighbour weights, plus
  the neighbour bias), its maximum with zero, and that array divided row by row by the square root of its rows' sums of
  squares, the root clamped below by a small constant. The last layer is the dense transform alone, with 40 columns.
  The neighbour sums and the clamped degrees are the two aggregate terms, which are never opened. The program's
  composed result is, by unfolding definitions only, the last layer applied to the second hidden layer applied to the
  first.
-/
import proofs.«103235_j68143951118848_2_alg».proof.Proof.Gen.ReferenceIdeal.Run
import proofs.«103235_j68143951118848_2_alg».proof.Proof.Aggregate

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The dense transform of a hidden layer on whole arrays: features `h`, neighbour sums `g`, clamped degrees `d`. -/
def denseOf (h g : (⟨S100000x128, .f32⟩ : BufTy).Contents (Elt Ideal)) (d : (⟨S100000, .f32⟩ : BufTy).Contents (Elt Ideal)) (ws : (⟨S128x128, .f32⟩ : BufTy).Contents (Elt Ideal)) (bs : (⟨S128, .f32⟩ : BufTy).Contents (Elt Ideal))
    (wn : (⟨S128x128, .f32⟩ : BufTy).Contents (Elt Ideal)) (bn : (⟨S128, .f32⟩ : BufTy).Contents (Elt Ideal)) : (⟨S100000x128, .f32⟩ : BufTy).Contents (Elt Ideal) :=
  addf (F := Ideal) (φ := .f32) (addf (F := Ideal) (φ := .f32) (addf (F := Ideal) (φ := .f32) (Host.dotGeneral (F := Ideal) (φ₁ := .f32) (φ₂ := .f32) dot_S100000x128_S128x128_S100000x128_1_0_0_1_n_n none h ws) (broadcastInDim S100000x128 ![0, 1] bcast_S1x128_S100000x128_0_1 (broadcastInDim S1x128 ![1] bcast_S128_S1x128_1 bs))) (Host.dotGeneral (F := Ideal) (φ₁ := .f32) (φ₂ := .f32) dot_S100000x128_S128x128_S100000x128_1_0_0_1_n_n none (Host.divf (F := Ideal) (φ := .f32) g (broadcastInDim S100000x128 ![0, 1] bcast_S100000x1_S100000x128_0_1 (broadcastInDim S100000x1 ![0] bcast_S100000_S100000x1_0 d))) wn)) (broadcastInDim S100000x128 ![0, 1] bcast_S1x128_S100000x128_0_1 (broadcastInDim S1x128 ![1] bcast_S128_S1x128_1 bn))

/-- The maximum with zero, entry by entry. -/
def reluOf (x : (⟨S100000x128, .f32⟩ : BufTy).Contents (Elt Ideal)) : (⟨S100000x128, .f32⟩ : BufTy).Contents (Elt Ideal) :=
  maximumf (F := Ideal) (φ := .f32) x (broadcastInDim S100000x128 ![] bcast_S_S100000x128 (constant (F := Ideal) S_ .f32 0x00000000#32))

/-- Each row divided by its Euclidean norm, the norm clamped below by the small constant. -/
def unitOf (y : (⟨S100000x128, .f32⟩ : BufTy).Contents (Elt Ideal)) : (⟨S100000x128, .f32⟩ : BufTy).Contents (Elt Ideal) :=
  Host.divf (F := Ideal) (φ := .f32) y (broadcastInDim S100000x128 ![0, 1] bcast_S100000x1_S100000x128_0_1 (maximumf (F := Ideal) (φ := .f32) (Host.sqrt (F := Ideal) (φ := .f32) (broadcastInDim S100000x1 ![0] bcast_S100000_S100000x1_0 (Host.reduceAdd (F := Ideal) (φ := .f32) (mulf (F := Ideal) (φ := .f32) y y) (constant (F := Ideal) S_ .f32 0x00000000#32) reducesTo_S100000x128_S100000_d1 h_S_))) (broadcastInDim S100000x1 ![] bcast_S_S100000x1 (constant (F := Ideal) S_ .f32 0x2B8CBCCC#32))))

/-- The dense transform of the last layer (40 columns). -/
def logitsOf (h g : (⟨S100000x128, .f32⟩ : BufTy).Contents (Elt Ideal)) (d : (⟨S100000, .f32⟩ : BufTy).Contents (Elt Ideal)) (ws : (⟨S128x40, .f32⟩ : BufTy).Contents (Elt Ideal)) (bs : (⟨S40, .f32⟩ : BufTy).Contents (Elt Ideal))
    (wn : (⟨S128x40, .f32⟩ : BufTy).Contents (Elt Ideal)) (bn : (⟨S40, .f32⟩ : BufTy).Contents (Elt Ideal)) : (⟨S100000x40, .f32⟩ : BufTy).Contents (Elt Ideal) :=
  addf (F := Ideal) (φ := .f32) (addf (F := Ideal) (φ := .f32) (addf (F := Ideal) (φ := .f32) (Host.dotGeneral (F := Ideal) (φ₁ := .f32) (φ₂ := .f32) dot_S100000x128_S128x40_S100000x40_1_0_0_1_n_n none h ws) (broadcastInDim S100000x40 ![0, 1] bcast_S1x40_S100000x40_0_1 (broadcastInDim S1x40 ![1] bcast_S40_S1x40_1 bs))) (Host.dotGeneral (F := Ideal) (φ₁ := .f32) (φ₂ := .f32) dot_S100000x128_S128x40_S100000x40_1_0_0_1_n_n none (Host.divf (F := Ideal) (φ := .f32) g (broadcastInDim S100000x128 ![0, 1] bcast_S100000x1_S100000x128_0_1 (broadcastInDim S100000x1 ![0] bcast_S100000_S100000x1_0 d))) wn)) (broadcastInDim S100000x40 ![0, 1] bcast_S1x40_S100000x40_0_1 (broadcastInDim S1x40 ![1] bcast_S40_S1x40_1 bn))

/-- One hidden layer of the reference: features, the two edge lists, self weights and bias, neighbour weights and bias. -/
def refHidden (h : (⟨S100000x128, .f32⟩ : BufTy).Contents (Elt Ideal)) (src dst : (⟨S1600000, .i32⟩ : BufTy).Contents (Elt Ideal)) (ws : (⟨S128x128, .f32⟩ : BufTy).Contents (Elt Ideal)) (bs : (⟨S128, .f32⟩ : BufTy).Contents (Elt Ideal))
    (wn : (⟨S128x128, .f32⟩ : BufTy).Contents (Elt Ideal)) (bn : (⟨S128, .f32⟩ : BufTy).Contents (Elt Ideal)) : (⟨S100000x128, .f32⟩ : BufTy).Contents (Elt Ideal) :=
  unitOf (reluOf (denseOf h (Cert.Sage.sums h src dst) (Cert.Sage.degs dst) ws bs wn bn))

/-- The last layer of the reference. -/
def refLogits (h : (⟨S100000x128, .f32⟩ : BufTy).Contents (Elt Ideal)) (src dst : (⟨S1600000, .i32⟩ : BufTy).Contents (Elt Ideal)) (ws : (⟨S128x40, .f32⟩ : BufTy).Contents (Elt Ideal)) (bs : (⟨S40, .f32⟩ : BufTy).Contents (Elt Ideal))
    (wn : (⟨S128x40, .f32⟩ : BufTy).Contents (Elt Ideal)) (bn : (⟨S40, .f32⟩ : BufTy).Contents (Elt Ideal)) : (⟨S100000x40, .f32⟩ : BufTy).Contents (Elt Ideal) :=
  logitsOf h (Cert.Sage.sums h src dst) (Cert.Sage.degs dst) ws bs wn bn

set_option maxRecDepth 8192 in
/-- The program's composed result is the last layer of the second hidden layer of the first. -/
theorem res_eq (m : (ℓ : Loc nD τ sig) → Buf (Elt Ideal) ℓ) (c : Dev nD) :
    Cert.ReferenceIdeal.Value.res_main_v95 (F := Ideal) m c
      = refLogits (refHidden (refHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
            (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)))
          (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v95 refLogits refHidden logitsOf unitOf reluOf denseOf Cert.Sage.sums Cert.Sage.degs Cert.Sage.counts
  rfl

end Cert.ReferenceIdeal.RefValue

end
-- ==== Proof.RefIndex.lean ====
/-
  The reference program's array operations read at one coordinate, over the extended reals.

  A product of a `[100000,128]` array with a `[128,o]` array is, at `(r, j)`, the sum over `k` of `x[r,k] · w[k,j]`
  (`o` is 128 in the hidden layers and 40 in the last). A bias vector of length `o`, made a row and repeated down the
  rows, reads the vector at the column `j`; a vector of length 100000, made a column and repeated along the rows, reads
  the vector at the row `r`; a scalar broadcast reads the scalar. The sum along the second axis, started at zero, is the
  finite sum of the row. Each statement is over explicit coordinates `(r : Fin 100000)`, `(j : Fin o)`.
-/
import proofs.«103235_j68143951118848_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ### The contraction `[100000,128] × [128,128]`: coordinates of the operand indices -/

theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry `(r, j)` of the product of a `[100000,128]` array with a `[128,128]` array is `Σ_k x[r,k] · w[k,j]`. -/
theorem dot128_apply (x : (⟨S100000x128, .f32⟩ : BufTy).Contents (Elt Ideal)) (w : (⟨S128x128, .f32⟩ : BufTy).Contents (Elt Ideal)) (r : Fin 100000) (j : Fin 128) :
    Host.dotGeneral (F := Ideal) (φ₁ := .f32) (φ₂ := .f32) dot_S100000x128_S128x128_S100000x128_1_0_0_1_n_n none x w (ix2 r j) = ∑ k : Fin 128, x (ix2 r k) * w (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-! ### The contraction `[100000,128] × [128,40]`: coordinates of the operand indices -/

theorem lhs40_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem lhs40_1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
theorem rhs40_0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
theorem rhs40_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- Entry `(r, j)` of the product of a `[100000,128]` array with a `[128,40]` array is `Σ_k x[r,k] · w[k,j]`. -/
theorem dot40_apply (x : (⟨S100000x128, .f32⟩ : BufTy).Contents (Elt Ideal)) (w : (⟨S128x40, .f32⟩ : BufTy).Contents (Elt Ideal)) (r : Fin 100000) (j : Fin 40) :
    Host.dotGeneral (F := Ideal) (φ₁ := .f32) (φ₂ := .f32) dot_S100000x128_S128x40_S100000x40_1_0_0_1_n_n none x w (ix2 r j) = ∑ k : Fin 128, x (ix2 r k) * w (ix2 k j) := by
  simp only [Host.dotGeneral]
  rw [Ideal.dotGeneral_apply, ← Equiv.sum_comp (contrEquiv1 dot_S100000x128_S128x40_S100000x40_1_0_0_1_n_n 128 rfl rfl).symm]
  refine Finset.sum_congr rfl fun k _ => ?_
  have hk := contrEquiv1_symm_val dot_S100000x128_S128x40_S100000x40_1_0_0_1_n_n 128 rfl rfl k
  have el : dot_S100000x128_S128x40_S100000x40_1_0_0_1_n_n.lhsIdx (ix2 r j) ((contrEquiv1 dot_S100000x128_S128x40_S100000x40_1_0_0_1_n_n 128 rfl rfl).symm k) = ix2 r k := funext fun a => Fin.ext (by
    match a with
    | ⟨0, _⟩ => exact lhs40_0 _ _
    | ⟨1, _⟩ => exact (lhs40_1 _ _).trans hk)
  have er : dot_S100000x128_S128x40_S100000x40_1_0_0_1_n_n.rhsIdx (ix2 r j) ((contrEquiv1 dot_S100000x128_S128x40_S100000x40_1_0_0_1_n_n 128 rfl rfl).symm k) = ix2 k j := funext fun a => Fin.ext (by
    match a with
    | ⟨0, _⟩ => exact (rhs40_0 _ _).trans hk
    | ⟨1, _⟩ => exact rhs40_1 _ _)
  rw [el, er]

/-! ### Broadcasts read at coordinates -/

/-- A bias vector broadcast to one row and then to every row reads, at `(r, j)`, the vector at `j`. -/
theorem biasRows128_apply (b : (⟨S128, .f32⟩ : BufTy).Contents (Elt Ideal)) (r : Fin 100000) (j : Fin 128) :
    broadcastInDim S100000x128 ![0, 1] bcast_S1x128_S100000x128_0_1 (broadcastInDim S1x128 ![1] bcast_S128_S1x128_1 b) (ix2 r j) = b (ix1 j) := by
  refine (broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A bias vector broadcast to one row and then to every row reads, at `(r, j)`, the vector at `j`. -/
theorem biasRows40_apply (b : (⟨S40, .f32⟩ : BufTy).Contents (Elt Ideal)) (r : Fin 100000) (j : Fin 40) :
    broadcastInDim S100000x40 ![0, 1] bcast_S1x40_S100000x40_0_1 (broadcastInDim S1x40 ![1] bcast_S40_S1x40_1 b) (ix2 r j) = b (ix1 j) := by
  refine (broadcastInDim_apply _ bcast_S1x40_S100000x40_0_1 _ (ix2 r j) (ix2 (0 : Fin 1) j) (fun a => match a with
    | ⟨0, _⟩ => by show 0 = if (1 : Nat) = 1 then 0 else r.val; rw [if_pos rfl]
    | ⟨1, _⟩ => by show j.val = if (40 : Nat) = 1 then 0 else j.val; rw [if_neg (by decide)])).trans ?_
  exact broadcastInDim_apply _ bcast_S40_S1x40_1 b (ix2 (0 : Fin 1) j) (ix1 j) (fun a => match a with
    | ⟨0, _⟩ => by show j.val = if (40 : Nat) = 1 then 0 else j.val; rw [if_neg (by decide)])

/-- A column `[100000,1]` broadcast along the rows reads, at `(r, j)`, the column at `(r, 0)`. -/
theorem colBcast_apply (y : (⟨S100000x1, .f32⟩ : BufTy).Contents (Elt Ideal)) (r : Fin 100000) (j : Fin 128) :
    broadcastInDim S100000x128 ![0, 1] bcast_S100000x1_S100000x128_0_1 y (ix2 r j) = y (ix2 r (0 : Fin 1)) :=
  broadcastInDim_apply _ bcast_S100000x1_S100000x128_0_1 y (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-- A vector `[100000]` made a column reads, at `(r, 0)`, the vector at `r`. -/
theorem toCol_apply (d : (⟨S100000, .f32⟩ : BufTy).Contents (Elt Ideal)) (r : Fin 100000) :
    broadcastInDim S100000x1 ![0] bcast_S100000_S100000x1_0 d (ix2 r (0 : Fin 1)) = d (ix1 r) :=
  broadcastInDim_apply _ bcast_S100000_S100000x1_0 d (ix2 r (0 : Fin 1)) (ix1 r) (fun a => match a with
    | ⟨0, _⟩ => by show r.val = if (100000 : Nat) = 1 then 0 else r.val; rw [if_neg (by decide)])

/-- A vector `[100000]` made a column and broadcast along the rows reads, at `(r, j)`, the vector at `r`. -/
theorem rowwise_apply (d : (⟨S100000, .f32⟩ : BufTy).Contents (Elt Ideal)) (r : Fin 100000) (j : Fin 128) :
    broadcastInDim S100000x128 ![0, 1] bcast_S100000x1_S100000x128_0_1 (broadcastInDim S100000x1 ![0] bcast_S100000_S100000x1_0 d) (ix2 r j) = d (ix1 r) :=
  (colBcast_apply _ r j).trans (toCol_apply d r)

/-- A scalar broadcast to `[100000,128]` reads the scalar everywhere. -/
theorem splat128_apply (c : (⟨S_, .f32⟩ : BufTy).Contents (Elt Ideal)) (i : S100000x128.Idx) :
    broadcastInDim S100000x128 ![] bcast_S_S100000x128 c i = c ix0 :=
  broadcastInDim_apply _ bcast_S_S100000x128 c i ix0 (fun a => a.elim0)

/-- A scalar broadcast to a column `[100000,1]` reads the scalar everywhere. -/
theorem splatCol_apply (c : (⟨S_, .f32⟩ : BufTy).Contents (Elt Ideal)) (i : S100000x1.Idx) :
    broadcastInDim S100000x1 ![] bcast_S_S100000x1 c i = c ix0 :=
  broadcastInDim_apply _ bcast_S_S100000x1 c i ix0 (fun a => a.elim0)

/-! ### The row sums -/

/-- The sum along the second axis, started at zero, reads at `r` the sum of row `r`. -/
theorem rowSum_apply (x : (⟨S100000x128, .f32⟩ : BufTy).Contents (Elt Ideal)) (r : Fin 100000) :
    Host.reduceAdd (F := Ideal) x (constant S_ .f32 0x00000000#32) reducesTo_S100000x128_S100000_d1 h_S_ (ix1 r) = ∑ k : Fin 128, x (ix2 r k) := by
  simp only [Host.reduceAdd, Ideal.hostReduceAdd_def]
  rw [Ideal.hostReduceAdd_single reducesTo_S100000x128_S100000_d1 (by decide)]
  refine (congrArg (· + _) (?_ : constant (F := Ideal) S_ .f32 0x00000000#32 (Shape.Idx.first h_S_) = 0)).trans ((zero_add _).trans ?_)
  · exact Ideal.ofBits_zero_f32
  · refine Finset.sum_congr rfl fun k _ => ?_
    exact congrArg x (funext fun a => Fin.ext (by match a with | ⟨0, _⟩ => rfl | ⟨1, _⟩ => rfl))

end Cert.ReferenceIdeal.RefValue

end
-- ==== Proof.RefValue.lean ====
/-
  The reference program's layers, entry by entry, are the layer functions of the shared specification.

  At row `r` and column `j` the dense transform of the reference reads
      (Σ_k h[r,k]·Ws[k,j] + bs[j]) + Σ_k (g[r,k] / d[r])·Wn[k,j] + bn[j],
  where `g` are the neighbour sums and `d` the clamped degrees (both stay opaque): each matrix product is the finite
  sum over the contracted coordinate, each repeated bias reads its vector at the column, and the repeated degree column
  reads the degree of the row. A hidden layer then takes the maximum with zero and divides by the square root of the
  row's sum of squares, clamped below by the small constant — the row sum starts from zero, which adds nothing. These are
  the specification's `dense` and `unitRelu` word for word, so a hidden layer of the reference is `hidden` and its last
  layer is `logits`.
-/
import proofs.«103235_j68143951118848_2_alg».proof.Proof.RefTerm
import proofs.«103235_j68143951118848_2_alg».proof.Proof.RefIndex

noncomputable section

namespace Cert.ReferenceIdeal.RefValue

open Cert.ReferenceIdeal Cert.ReferenceIdeal.Gen Idealize.ShloMosaic Idealize.ShloMosaic.ValueIdx

/-- The dense transform of a hidden layer at `(r, j)`. -/
theorem denseOf_apply (h g : (⟨S100000x128, .f32⟩ : BufTy).Contents (Elt Ideal)) (d : (⟨S100000, .f32⟩ : BufTy).Contents (Elt Ideal)) (ws : (⟨S128x128, .f32⟩ : BufTy).Contents (Elt Ideal)) (bs : (⟨S128, .f32⟩ : BufTy).Contents (Elt Ideal))
    (wn : (⟨S128x128, .f32⟩ : BufTy).Contents (Elt Ideal)) (bn : (⟨S128, .f32⟩ : BufTy).Contents (Elt Ideal)) (r : Fin 100000) (j : Fin 128) :
    denseOf h g d ws bs wn bn (ix2 r j)
      = Cert.Sage.dense (Cert.Sage.cur2 h) (Cert.Sage.means g d) (Cert.Sage.cur2 ws) (Cert.Sage.cur2 wn) (Cert.Sage.cur1 bs) (Cert.Sage.cur1 bn) r j := by
  unfold denseOf Cert.Sage.dense
  rw [addf_apply, addf_apply, addf_apply, dot128_apply, dot128_apply, biasRows128_apply, biasRows128_apply]
  refine congrArg (· + bn (ix1 j)) (congrArg (_ + ·) (Finset.sum_congr rfl fun k _ => ?_))
  show Ideal.div (g (ix2 r k)) (broadcastInDim S100000x128 ![0, 1] bcast_S100000x1_S100000x128_0_1 (broadcastInDim S100000x1 ![0] bcast_S100000_S100000x1_0 d) (ix2 r k)) * wn (ix2 k j) = _
  rw [rowwise_apply d r k]

/-- The dense transform of the last layer at `(r, j)`. -/
theorem logitsOf_apply (h g : (⟨S100000x128, .f32⟩ : BufTy).Contents (Elt Ideal)) (d : (⟨S100000, .f32⟩ : BufTy).Contents (Elt Ideal)) (ws : (⟨S128x40, .f32⟩ : BufTy).Contents (Elt Ideal)) (bs : (⟨S40, .f32⟩ : BufTy).Contents (Elt Ideal))
    (wn : (⟨S128x40, .f32⟩ : BufTy).Contents (Elt Ideal)) (bn : (⟨S40, .f32⟩ : BufTy).Contents (Elt Ideal)) (r : Fin 100000) (j : Fin 40) :
    logitsOf h g d ws bs wn bn (ix2 r j)
      = Cert.Sage.dense (Cert.Sage.cur2 h) (Cert.Sage.means g d) (Cert.Sage.cur2 ws) (Cert.Sage.cur2 wn) (Cert.Sage.cur1 bs) (Cert.Sage.cur1 bn) r j := by
  unfold logitsOf Cert.Sage.dense
  rw [addf_apply, addf_apply, addf_apply, dot40_apply, dot40_apply, biasRows40_apply, biasRows40_apply]
  refine congrArg (· + bn (ix1 j)) (congrArg (_ + ·) (Finset.sum_congr rfl fun k _ => ?_))
  show Ideal.div (g (ix2 r k)) (broadcastInDim S100000x128 ![0, 1] bcast_S100000x1_S100000x128_0_1 (broadcastInDim S100000x1 ![0] bcast_S100000_S100000x1_0 d) (ix2 r k)) * wn (ix2 k j) = _
  rw [rowwise_apply d r k]

/-- The maximum with the zero array is the maximum with zero. -/
theorem reluOf_apply (x : (⟨S100000x128, .f32⟩ : BufTy).Contents (Elt Ideal)) (i : S100000x128.Idx) : reluOf x i = max (x i) 0 := by
  unfold reluOf
  rw [maximumf_apply, splat128_apply, constant_apply, Ideal.ofBits_zero_f32]

/-- The normalized array at `(r, j)`: the entry over the clamped Euclidean norm of its row. -/
theorem unitOf_apply (y : (⟨S100000x128, .f32⟩ : BufTy).Contents (Elt Ideal)) (r : Fin 100000) (j : Fin 128) :
    unitOf y (ix2 r j)
      = Ideal.div (y (ix2 r j)) (max (Ideal.sqrt (∑ k : Fin 128, y (ix2 r k) * y (ix2 r k))) (Ideal.ofBits .f32 0x2B8CBCCC#32)) := by
  unfold unitOf
  simp only [Host.divf, Ideal.hostDivf_def]
  rw [colBcast_apply, maximumf_apply, splatCol_apply, constant_apply]
  simp only [Host.sqrt, Ideal.hostUnary_sqrt_def]
  rw [toCol_apply, rowSum_apply]
  rfl

/-- A hidden layer of the reference is the specification's hidden layer of the features, the neighbour sums and the
    clamped degrees. -/
theorem refHidden_eq (h : (⟨S100000x128, .f32⟩ : BufTy).Contents (Elt Ideal)) (src dst : (⟨S1600000, .i32⟩ : BufTy).Contents (Elt Ideal)) (ws : (⟨S128x128, .f32⟩ : BufTy).Contents (Elt Ideal)) (bs : (⟨S128, .f32⟩ : BufTy).Contents (Elt Ideal))
    (wn : (⟨S128x128, .f32⟩ : BufTy).Contents (Elt Ideal)) (bn : (⟨S128, .f32⟩ : BufTy).Contents (Elt Ideal)) :
    refHidden h src dst ws bs wn bn
      = Cert.Sage.hidden (Ideal.ofBits .f32 0x2B8CBCCC#32) h (Cert.Sage.sums h src dst) (Cert.Sage.degs dst) ws wn bs bn := by
  unfold refHidden
  generalize Cert.Sage.sums h src dst = g
  generalize Cert.Sage.degs dst = d
  funext i
  obtain ⟨r, j, rfl⟩ : ∃ (r : Fin 100000) (j : Fin 128), i = ix2 r j := ⟨i 0, i 1, eq_ix2 i⟩
  rw [unitOf_apply]
  simp only [reluOf_apply, denseOf_apply]
  rfl

/-- The last layer of the reference is the specification's last layer. -/
theorem refLogits_eq (h : (⟨S100000x128, .f32⟩ : BufTy).Contents (Elt Ideal)) (src dst : (⟨S1600000, .i32⟩ : BufTy).Contents (Elt Ideal)) (ws : (⟨S128x40, .f32⟩ : BufTy).Contents (Elt Ideal)) (bs : (⟨S40, .f32⟩ : BufTy).Contents (Elt Ideal))
    (wn : (⟨S128x40, .f32⟩ : BufTy).Contents (Elt Ideal)) (bn : (⟨S40, .f32⟩ : BufTy).Contents (Elt Ideal)) :
    refLogits h src dst ws bs wn bn
      = Cert.Sage.logits h (Cert.Sage.sums h src dst) (Cert.Sage.degs dst) ws wn bs bn := by
  unfold refLogits
  generalize Cert.Sage.sums h src dst = g
  generalize Cert.Sage.degs dst = d
  funext i
  obtain ⟨r, j, rfl⟩ : ∃ (r : Fin 100000) (j : Fin 40), i = ix2 r j := ⟨i 0, i 1, eq_ix2 i⟩
  exact logitsOf_apply h g d ws bs wn bn r j

end Cert.ReferenceIdeal.RefValue

end
-- ==== Proof.RefNetwork.lean ====
/-
  The reference program computes the network.

  Its composed result is the last layer applied to the second hidden layer applied to the first; each hidden layer of
  the reference is the specification's hidden layer of the features, their neighbourhood sums and the clamped degrees,
  and its last layer is the specification's last layer. Composing the three gives the network as one function of the
  fifteen arguments.
-/
import proofs.«103235_j68143951118848_2_alg».proof.Proof.RefValue
import proofs.«103235_j68143951118848_2_alg».proof.Proof.Network

noncomputable section

namespace Cert.ReferenceIdeal.RefNetwork

open Cert.ReferenceIdeal Cert.ReferenceIdeal.Gen Cert.ReferenceIdeal.RefValue Idealize.ShloMosaic Idealize.ShloMosaic.TcCoe Idealize.SL.Sem Idealize.ShloMosaic.StableHlo

/-- A hidden layer of the reference is the network's hidden layer. -/
theorem refHidden_eq_layer (h : (⟨S100000x128, .f32⟩ : BufTy).Contents (Elt Ideal)) (src dst : (⟨S1600000, .i32⟩ : BufTy).Contents (Elt Ideal)) (ws : (⟨S128x128, .f32⟩ : BufTy).Contents (Elt Ideal)) (bs : (⟨S128, .f32⟩ : BufTy).Contents (Elt Ideal))
    (wn : (⟨S128x128, .f32⟩ : BufTy).Contents (Elt Ideal)) (bn : (⟨S128, .f32⟩ : BufTy).Contents (Elt Ideal)) :
    refHidden h src dst ws bs wn bn = Cert.Sage.hiddenLayer h src dst ws bs wn bn := by
  unfold Cert.Sage.hiddenLayer
  exact refHidden_eq h src dst ws bs wn bn

/-- The last layer of the reference is the network's last layer. -/
theorem refLogits_eq_layer (h : (⟨S100000x128, .f32⟩ : BufTy).Contents (Elt Ideal)) (src dst : (⟨S1600000, .i32⟩ : BufTy).Contents (Elt Ideal)) (ws : (⟨S128x40, .f32⟩ : BufTy).Contents (Elt Ideal)) (bs : (⟨S40, .f32⟩ : BufTy).Contents (Elt Ideal))
    (wn : (⟨S128x40, .f32⟩ : BufTy).Contents (Elt Ideal)) (bn : (⟨S40, .f32⟩ : BufTy).Contents (Elt Ideal)) :
    refLogits h src dst ws bs wn bn = Cert.Sage.lastLayer h src dst ws bs wn bn := by
  unfold Cert.Sage.lastLayer
  exact refLogits_eq h src dst ws bs wn bn

/-- The reference program's composed result is the network of its fifteen arguments. -/
theorem res_network (m : (ℓ : Loc nD τ sig) → Buf (Elt Ideal) ℓ) (c : Dev nD) :
    Cert.ReferenceIdeal.Value.res_main_v95 (F := Ideal) m c
      = Cert.Sage.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (res_eq m c).trans ?_
  rw [refLogits_eq_layer, refHidden_eq_layer, refHidden_eq_layer]
  rfl

end Cert.ReferenceIdeal.RefNetwork

end
-- ==== Proof.lean ====
/-
  A three-layer GraphSAGE network: a Pallas kernel program against its jnp reference, over the extended reals.

  Each layer maps node features `h` to  act( h·Ws + bs + mean_nbr(h)·Wn + bn ), where mean_nbr(h) is the sum of the
  neighbours' rows divided by the in-degree clamped below by one; the two hidden layers clamp at zero and scale
  every row to unit Euclidean length (the norm clamped below by a small constant), the last layer does neither.
  The reference computes exactly this with host operations. The kernel program computes the neighbourhood sums and
  the degrees with the same host operations, and runs the dense part of each layer as a pallas_call over blocks of
  2000 rows: it multiplies the sums by the reciprocal degree instead of dividing, adds the two biases first, and
  narrows its matrix operands and its hidden outputs to a shorter float format. On the extended reals a change of
  format is the identity, a matrix product is the sum it stands for, `x · (1 / d) = x / d` for every `d ≠ 0` (a
  clamped degree is at least one), and addition is commutative and associative: the two programs compute one
  function of their arguments, `Cert.Sage.network`. No finiteness of the inputs is used.

  The frames of the two kernel programs are the generated ones (read from copies whose only change is a heartbeat
  option and an import); the reference's frame is its generated run with the
  result dropped; the ideal pass rewrote nothing, so `preserves` is trivial.
-/
import proofs.«103235_j68143951118848_2_alg».proof.Defs
import proofs.«103235_j68143951118848_2_alg».proof.Proof.Gen.Kernel
import proofs.«103235_j68143951118848_2_alg».proof.Proof.Gen.Kernel.Skeleton
import proofs.«103235_j68143951118848_2_alg».proof.Proof.Gen.Kernel.Points
import proofs.«103235_j68143951118848_2_alg».proof.Proof.FrameKernel
import proofs.«103235_j68143951118848_2_alg».proof.Proof.Gen.KernelIdeal
import proofs.«103235_j68143951118848_2_alg».proof.Proof.Gen.KernelIdeal.Skeleton
import proofs.«103235_j68143951118848_2_alg».proof.Proof.Gen.KernelIdeal.Points
import proofs.«103235_j68143951118848_2_alg».proof.Proof.FrameKernelIdeal
import proofs.«103235_j68143951118848_2_alg».proof.Proof.Gen.ReferenceIdeal
import proofs.«103235_j68143951118848_2_alg».proof.Proof.Gen.Pre_finite_inputs
import proofs.«103235_j68143951118848_2_alg».proof.Proof.Gen.ReferenceIdeal.Run
import proofs.«103235_j68143951118848_2_alg».proof.Proof.Gen.ReferenceIdeal.Read
import proofs.«103235_j68143951118848_2_alg».proof.Proof.KernelValue
import proofs.«103235_j68143951118848_2_alg».proof.Proof.RefNetwork
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result buffers. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefNetwork.res_network m' c]
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
